-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S2002x1024 : Shape := ⟨2, ![2002, 1024]⟩
abbrev S2002 : Shape := ⟨1, ![2002]⟩
abbrev S1024x1024 : Shape := ⟨2, ![1024, 1024]⟩
abbrev S8000x1024 : Shape := ⟨2, ![8000, 1024]⟩
abbrev S256x1024 : Shape := ⟨2, ![256, 1024]⟩
abbrev S20000x256 : Shape := ⟨2, ![20000, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2002x1024 : S_.BroadcastsInDim S2002x1024 (![] : Fin 0 → Fin S2002x1024.rank)
  reducesTo_S2002x1024_S_d0_1 : S2002x1024.ReducesTo [0, 1] S_
  bcast_S_S2002 : S_.BroadcastsInDim S2002 (![] : Fin 0 → Fin S2002.rank)
  reducesTo_S2002_S_d0 : S2002.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8000x1024 : S_.BroadcastsInDim S8000x1024 (![] : Fin 0 → Fin S8000x1024.rank)
  reducesTo_S8000x1024_S_d0_1 : S8000x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S20000x256 : S_.BroadcastsInDim S20000x256 (![] : Fin 0 → Fin S20000x256.rank)
  reducesTo_S20000x256_S_d0_1 : S20000x256.ReducesTo [0, 1] S_

variable [Facts]

def fn_part1 {F : FTy → Type} [FloatOps F] (main_arg5 : FVec F S8000x1024 .f32) (main_arg6 : FVec F S256x1024 .f32) (main_arg7 : FVec F S20000x256 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S8000x1024 .f32 := Host.absf main_arg5
  let main_cst_6 : FVec F S_ .f32 := constant S_ .f32 0x7F800000#32
  let main_v20 : FVec F S8000x1024 .f32 := broadcastInDim S8000x1024 ![] bcast_S_S8000x1024 main_cst_6
  let main_v21 : IVec S8000x1024 1 := cmpf .olt main_v19 main_v20
  let main_c_7 : IVec S_ 1 := constantI S_ 1 1#1
  let main_v22 : IVec S_ 1 := (fun x v => Host.reduce IntOp.andi x v reducesTo_S8000x1024_S_d0_1 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S20000x256 .f32 := Host.absf main_arg7
  let main_cst_10 : FVec F S_ .f32 := constant S_ .f32 0x7F800000#32
  let main_v30 : FVec F S20000x256 .f32 := broadcastInDim S20000x256 ![] bcast_S_S20000x256 main_cst_10
  let main_v31 : IVec S20000x256 1 := cmpf .olt main_v29 main_v30
  let main_c_11 : IVec S_ 1 := constantI S_ 1 1#1
  let main_v32 : IVec S_ 1 := (fun x v => Host.reduce IntOp.andi x v reducesTo_S20000x256_S_d0_1 h_S_) main_v31 main_c_11
  let main_v33 : IVec S_ 1 := andi main_v28 main_v32
  main_v33

def fn {F : FTy → Type} [FloatOps F] (main_arg0 : FVec F S8192x1024 .f32) (main_arg1 : IVec S8192 32) (main_arg2 : FVec F S2002x1024 .f32) (main_arg3 : FVec F S2002 .f32) (main_arg4 : FVec F S1024x1024 .f32) (main_arg5 : FVec F S8000x1024 .f32) (main_arg6 : FVec F S256x1024 .f32) (main_arg7 : FVec F S20000x256 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2002x1024 .f32 := Host.absf main_arg2
  let main_cst_0 : FVec F S_ .f32 := constant S_ .f32 0x7F800000#32
  let main_v5 : FVec F S2002x1024 .f32 := broadcastInDim S2002x1024 ![] bcast_S_S2002x1024 main_cst_0
  let main_v6 : IVec S2002x1024 1 := cmpf .olt main_v4 main_v5
  let main_c_1 : IVec S_ 1 := constantI S_ 1 1#1
  let main_v7 : IVec S_ 1 := (fun x v => Host.reduce IntOp.andi x v reducesTo_S2002x1024_S_d0_1 h_S_) main_v6 main_c_1
  let main_v8 : IVec S_ 1 := andi main_v3 main_v7
  let main_v9 : FVec F S2002 .f32 := Host.absf main_arg3
  let main_cst_2 : FVec F S_ .f32 := constant S_ .f32 0x7F800000#32
  let main_v10 : FVec F S2002 .f32 := broadcastInDim S2002 ![] bcast_S_S2002 main_cst_2
  let main_v11 : IVec S2002 1 := cmpf .olt main_v9 main_v10
  let main_c_3 : IVec S_ 1 := constantI S_ 1 1#1
  let main_v12 : IVec S_ 1 := (fun x v => Host.reduce IntOp.andi x v reducesTo_S2002_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_v13 main_v16
-- ==== Kernel.lean ====
abbrev S8192x1024 : Shape := ⟨2, ![8192, 1024]⟩
abbrev S8192 : Shape := ⟨1, ![8192]⟩
abbrev S2002x1024 : Shape := ⟨2, ![2002, 1024]⟩
abbrev S2002 : Shape := ⟨1, ![2002]⟩
abbrev S1024x1024 : Shape := ⟨2, ![1024, 1024]⟩
abbrev S8000x1024 : Shape := ⟨2, ![8000, 1024]⟩
abbrev S256x1024 : Shape := ⟨2, ![256, 1024]⟩
abbrev S20000x256 : Shape := ⟨2, ![20000, 256]⟩
abbrev S_ : Shape := ⟨0, ![]⟩
abbrev S8192x1 : Shape := ⟨2, ![8192, 1]⟩
abbrev S1x2002 : Shape := ⟨2, ![1, 2002]⟩
abbrev S8192x2002 : Shape := ⟨2, ![8192, 2002]⟩
abbrev S8192x8000 : Shape := ⟨2, ![8192, 8000]⟩
abbrev S128x1024 : Shape := ⟨2, ![128, 1024]⟩
abbrev S128x1 : Shape := ⟨2, ![128, 1]⟩
abbrev S128x2002 : Shape := ⟨2, ![128, 2002]⟩
abbrev S128x8000 : Shape := ⟨2, ![128, 8000]⟩
abbrev S8192x20000 : Shape := ⟨2, ![8192, 20000]⟩
abbrev S64x1024 : Shape := ⟨2, ![64, 1024]⟩
abbrev S64x1 : Shape := ⟨2, ![64, 1]⟩
abbrev S64x20000 : Shape := ⟨2, ![64, 20000]⟩
abbrev S64x256 : Shape := ⟨2, ![64, 256]⟩

abbrev nBuf : Space → Nat
  | .hbm => 35
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S2002x1024, .f32⟩
  | .hbm, ⟨3, _⟩ => ⟨S2002, .f32⟩
  | .hbm, ⟨4, _⟩ => ⟨S1024x1024, .f32⟩
  | .hbm, ⟨5, _⟩ => ⟨S8000x1024, .f32⟩
  | .hbm, ⟨6, _⟩ => ⟨S256x1024, .f32⟩
  | .hbm, ⟨7, _⟩ => ⟨S20000x256, .f32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .i1⟩
  | .hbm, ⟨15, _⟩ => ⟨S8192, .f32⟩
  | .hbm, ⟨16, _⟩ => ⟨S8192x1, .f32⟩
  | .hbm, ⟨17, _⟩ => ⟨S_, .i32⟩
  | .hbm, ⟨18, _⟩ => ⟨S8192, .i32⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .i1⟩
  | .hbm, ⟨24, _⟩ => ⟨S8192, .f32⟩
  | .hbm, ⟨25, _⟩ => ⟨S8192x1, .f32⟩
  | .hbm, ⟨26, _⟩ => ⟨S2002x1024, .bf16⟩
  | .hbm, ⟨27, _⟩ => ⟨S1024x1024, .bf16⟩
  | .hbm, ⟨28, _⟩ => ⟨S8000x1024, .bf16⟩
  | .hbm, ⟨29, _⟩ => ⟨S256x1024, .bf16⟩
  | .hbm, ⟨30, _⟩ => ⟨S20000x256, .bf16⟩
  | .hbm, ⟨31, _⟩ => ⟨S1x2002, .f32⟩
  | .hbm, ⟨32, _⟩ => ⟨S8192x2002, .f32⟩
  | .hbm, ⟨33, _⟩ => ⟨S8192x8000, .f32⟩
  | .hbm, ⟨34, _⟩ => ⟨S8192x20000, .f32⟩
  | .local _ .vmem, ⟨0, _⟩ => ⟨S128x1024, .f32⟩
  | .local _ .vmem, ⟨1, _⟩ => ⟨S128x1024, .f32⟩
  | .local _ .vmem, ⟨2, _⟩ => ⟨S2002x1024, .bf16⟩
  | .local _ .vmem, ⟨3, _⟩ => ⟨S1x2002, .f32⟩
  | .local _ .vmem, ⟨4, _⟩ => ⟨S1024x1024, .bf16⟩
  | .local _ .vmem, ⟨5, _⟩ => ⟨S8000x1024, .bf16⟩
  | .local _ .vmem, ⟨6, _⟩ => ⟨S128x1, .f32⟩
  | .local _ .vmem, ⟨7, _⟩ => ⟨S128x1, .f32⟩
  | .local _ .vmem, ⟨8, _⟩ => ⟨S128x2002, .f32⟩
  | .local _ .vmem, ⟨9, _⟩ => ⟨S128x2002, .f32⟩
  | .local _ .vmem, ⟨10, _⟩ => ⟨S128x8000, .f32⟩
  | .local _ .vmem, ⟨11, _⟩ => ⟨S128x8000, .f32⟩
  | .local _ .vmem, ⟨12, _⟩ => ⟨S64x1024, .f32⟩
  | .local _ .vmem, ⟨13, _⟩ => ⟨S64x1024, .f32⟩
  | .local _ .vmem, ⟨14, _⟩ => ⟨S256x1024, .bf16⟩
  | .local _ .vmem, ⟨15, _⟩ => ⟨S20000x256, .bf16⟩
  | .local _ .vmem, ⟨16, _⟩ => ⟨S64x1, .f32⟩
  | .local _ .vmem, ⟨17, _⟩ => ⟨S64x1, .f32⟩
  | .local _ .vmem, ⟨18, _⟩ => ⟨S64x20000, .f32⟩
  | .local _ .vmem, ⟨19, _⟩ => ⟨S64x20000, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2002x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2002 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8000x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2002 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x8000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S20000x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x20000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S8192 : S_.BroadcastsInDim S8192 (![] : Fin 0 → Fin S8192.rank)
  shapeCasts_S8192_S8192x1 : S8192.ShapeCasts S8192x1
  bitsLt_bf16_f32 : FTy.bits .bf16 < FTy.bits .f32
  shapeCasts_S2002_S1x2002 : S2002.ShapeCasts S1x2002
  inb_S128x1024_S128x1024_0_0 : ∀ a, (![0, 0] : Fin 2 → Nat) a + S128x1024.size a ≤ S128x1024.size a
  h_S128x1024 : 0 < S128x1024.numel
  inb_S2002x1024_S2002x1024_0_0 : ∀ a, (![0, 0] : Fin 2 → Nat) a + S2002x1024.size a ≤ S2002x1024.size a
  h_S2002x1024 : 0 < S2002x1024.numel
  shapeCasts_S2002x1024_S2002x1024 : S2002x1024.ShapeCasts S2002x1024
  inb_S1x2002_S1x2002_0_0 : ∀ a, (![0, 0] : Fin 2 → Nat) a + S1x2002.size a ≤ S1x2002.size a
  h_S1x2002 : 0 < S1x2002.numel
  shapeCasts_S1x2002_S1x2002 : S1x2002.ShapeCasts S1x2002
  broadcasts_S1x2002_S128x2002 : S1x2002.Broadcasts S128x2002
  inb_S128x2002_S128x2002_0_0 : ∀ a, (![0, 0] : Fin 2 → Nat) a + S128x2002.size a ≤ S128x2002.size a
  h_S128x2002 : 0 < S128x2002.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  inb_S8000x1024_S8000x1024_0_0 : ∀ a, (![0, 0] : Fin 2 → Nat) a + S8000x1024.size a ≤ S8000x1024.size a
  h_S8000x1024 : 0 < S8000x1024.numel
  shapeCasts_S8000x1024_S8000x1024 : S8000x1024.ShapeCasts S8000x1024
  inb_S128x8000_S128x8000_0_0 : ∀ a, (![0, 0] : Fin 2 → Nat) a + S128x8000.size a ≤ S128x8000.size a
  h_S128x8000 : 0 < S128x8000.numel
  inb_S64x1024_S64x1024_0_0 : ∀ a, (![0, 0] : Fin 2 → Nat) a + S64x1024.size a ≤ S64x1024.size a
  h_S64x1024 : 0 < S64x1024.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x256 : S64x1.Broadcasts S64x256
  inb_S20000x256_S20000x256_0_0 : ∀ a, (![0, 0] : Fin 2 → Nat) a + S20000x256.size a ≤ S20000x256.size a
  h_S20000x256 : 0 < S20000x256.numel
  shapeCasts_S20000x256_S20000x256 : S20000x256.ShapeCasts S20000x256
  inb_S64x20000_S64x20000_0_0 : ∀ a, (![0, 0] : Fin 2 → Nat) a + S64x20000.size a ≤ S64x20000.size a
  h_S64x20000 : 0 < S64x20000.numel
  dot_S128x1024_S2002x1024_S128x2002_1_1_0_0_n_n_wf : DotDims.WF S128x1024 S2002x1024 S128x2002 [1] [1] [0] [0] [] []
  dot_S128x1024_S1024x1024_S128x1024_1_1_0_0_n_n_wf : DotDims.WF S128x1024 S1024x1024 S128x1024 [1] [1] [0] [0] [] []
  dot_S128x1024_S8000x1024_S128x8000_1_1_0_0_n_n_wf : DotDims.WF S128x1024 S8000x1024 S128x8000 [1] [1] [0] [0] [] []
  dot_S64x1024_S256x1024_S64x256_1_1_0_0_n_n_wf : DotDims.WF S64x1024 S256x1024 S64x256 [1] [1] [0] [0] [] []
  dot_S64x256_S20000x256_S64x20000_1_1_0_0_n_n_wf : DotDims.WF S64x256 S20000x256 S64x20000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S8192x1024.size a
  hwx0_0 : ∀ i : grid0.Coords, EltTy.bits .f32 = 32 ∨ (Rect.block (s := S8192x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2002x1024.size a ≤ S2002x1024.size a
  hwx0_1 : ∀ i : grid0.Coords, EltTy.bits .bf16 = 32 ∨ (Rect.block (s := S2002x1024) S2002x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2002.size a ≤ S1x2002.size a
  hwx0_2 : ∀ i : grid0.Coords, EltTy.bits .f32 = 32 ∨ (Rect.block (s := S1x2002) S1x2002.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8000x1024.size a ≤ S8000x1024.size a
  hwx0_4 : ∀ i : grid0.Coords, EltTy.bits .bf16 = 32 ∨ (Rect.block (s := S8000x1024) S8000x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2002.size a ≤ S8192x2002.size a
  hwx0_6 : ∀ i : grid0.Coords, EltTy.bits .f32 = 32 ∨ (Rect.block (s := S8192x2002) S128x2002.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x8000.size a ≤ S8192x8000.size a
  hwx0_7 : ∀ i : grid0.Coords, EltTy.bits .f32 = 32 ∨ (Rect.block (s := S8192x8000) S128x8000.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S8192x1024.size a
  hwx1_0 : ∀ i : grid1.Coords, EltTy.bits .f32 = 32 ∨ (Rect.block (s := S8192x1024) S64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S20000x256.size a ≤ S20000x256.size a
  hwx1_2 : ∀ i : grid1.Coords, EltTy.bits .bf16 = 32 ∨ (Rect.block (s := S20000x256) S20000x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S8192x1.size a
  hwx1_3 : ∀ i : grid1.Coords, EltTy.bits .f32 = 32 ∨ (Rect.block (s := S8192x1) S64x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x20000.size a ≤ S8192x20000.size a
  hwx1_4 : ∀ i : grid1.Coords, EltTy.bits .f32 = 32 ∨ (Rect.block (s := S8192x20000) S64x20000.size (cc1_transform_4 i) (hinb1_4 i)).WholeWords (EltTy.packing .f32)

variable [Facts₀]

def dot_S128x1024_S2002x1024_S128x2002_1_1_0_0_n_n : DotDims S128x1024 S2002x1024 S128x2002 where
  lhsContracting := [1]
  rhsContracting := [1]
  lhsNonContracting := [0]
  rhsNonContracting := [0]
  lhsBatch := []
  rhsBatch := []
  wf := dot_S128x1024_S2002x1024_S128x2002_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S8000x1024_S128x8000_1_1_0_0_n_n : DotDims S128x1024 S8000x1024 S128x8000 where
  lhsContracting := [1]
  rhsContracting := [1]
  lhsNonContracting := [0]
  rhsNonContracting := [0]
  lhsBatch := []
  rhsBatch := []
  wf := dot_S128x1024_S8000x1024_S128x8000_1_1_0_0_n_n_wf
def dot_S64x1024_S256x1024_S64x256_1_1_0_0_n_n : DotDims S64x1024 S256x1024 S64x256 where
  lhsContracting := [1]
  rhsContracting := [1]
  lhsNonContracting := [0]
  rhsNonContracting := [0]
  lhsBatch := []
  rhsBatch := []
  wf := dot_S64x1024_S256x1024_S64x256_1_1_0_0_n_n_wf
def dot_S64x256_S20000x256_S64x20000_1_1_0_0_n_n : DotDims S64x256 S20000x256 S64x20000 where
  lhsContracting := [1]
  rhsContracting := [1]
  lhsNonContracting := [0]
  rhsNonContracting := [0]
  lhsBatch := []
  rhsBatch := []
  wf := dot_S64x256_S20000x256_S64x20000_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2002x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x2002.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S8000x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_0) S128x2002.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v20_1) S128x8000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S20000x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S64x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S64x20000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192 : Shape := ⟨1, ![8192]⟩
abbrev S2002x1024 : Shape := ⟨2, ![2002, 1024]⟩
abbrev S2002 : Shape := ⟨1, ![2002]⟩
abbrev S1024x1024 : Shape := ⟨2, ![1024, 1024]⟩
abbrev S8000x1024 : Shape := ⟨2, ![8000, 1024]⟩
abbrev S256x1024 : Shape := ⟨2, ![256, 1024]⟩
abbrev S20000x256 : Shape := ⟨2, ![20000, 256]⟩
abbrev S1024x2002 : Shape := ⟨2, ![1024, 2002]⟩
abbrev S8192x2002 : Shape := ⟨2, ![8192, 2002]⟩
abbrev S1x2002 : Shape := ⟨2, ![1, 2002]⟩
abbrev S_ : Shape := ⟨0, ![]⟩
abbrev S1024x8000 : Shape := ⟨2, ![1024, 8000]⟩
abbrev S8192x8000 : Shape := ⟨2, ![8192, 8000]⟩
abbrev S8192x1 : Shape := ⟨2, ![8192, 1]⟩
abbrev S1024x256 : Shape := ⟨2, ![1024, 256]⟩
abbrev S8192x256 : Shape := ⟨2, ![8192, 256]⟩
abbrev S256x20000 : Shape := ⟨2, ![256, 20000]⟩
abbrev S8192x20000 : Shape := ⟨2, ![8192, 20000]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S2002x1024, .f32⟩
  | .hbm, ⟨3, _⟩ => ⟨S2002, .f32⟩
  | .hbm, ⟨4, _⟩ => ⟨S1024x1024, .f32⟩
  | .hbm, ⟨5, _⟩ => ⟨S8000x1024, .f32⟩
  | .hbm, ⟨6, _⟩ => ⟨S256x1024, .f32⟩
  | .hbm, ⟨7, _⟩ => ⟨S20000x256, .f32⟩
  | .hbm, ⟨8, _⟩ => ⟨S1024x2002, .f32⟩
  | .hbm, ⟨9, _⟩ => ⟨S8192x2002, .f32⟩
  | .hbm, ⟨10, _⟩ => ⟨S1x2002, .f32⟩
  | .hbm, ⟨11, _⟩ => ⟨S8192x2002, .f32⟩
  | .hbm, ⟨12, _⟩ => ⟨S8192x2002, .f32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i1⟩
  | .hbm, ⟨20, _⟩ => ⟨S8192, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S8192, .f32⟩
  | .hbm, ⟨29, _⟩ => ⟨S1024x1024, .f32⟩
  | .hbm, ⟨30, _⟩ => ⟨S8192x1024, .f32⟩
  | .hbm, ⟨31, _⟩ => ⟨S1024x8000, .f32⟩
  | .hbm, ⟨32, _⟩ => ⟨S8192x8000, .f32⟩
  | .hbm, ⟨33, _⟩ => ⟨S8192x1, .f32⟩
  | .hbm, ⟨34, _⟩ => ⟨S8192x8000, .f32⟩
  | .hbm, ⟨35, _⟩ => ⟨S8192x8000, .f32⟩
  | .hbm, ⟨36, _⟩ => ⟨S1024x256, .f32⟩
  | .hbm, ⟨37, _⟩ => ⟨S8192x256, .f32⟩
  | .hbm, ⟨38, _⟩ => ⟨S256x20000, .f32⟩
  | .hbm, ⟨39, _⟩ => ⟨S8192x20000, .f32⟩
  | .hbm, ⟨40, _⟩ => ⟨S8192x1, .f32⟩
  | .hbm, ⟨41, _⟩ => ⟨S8192x20000, .f32⟩
  | .hbm, ⟨42, _⟩ => ⟨S8192x20000, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  transposes_S2002x1024_S1024x2002_1_0 : S2002x1024.Transposes [1, 0] S1024x2002
  bcast_S2002_S1x2002_1 : S2002.BroadcastsInDim S1x2002 (![1] : Fin 1 → Fin S1x2002.rank)
  bcast_S1x2002_S8192x2002_0_1 : S1x2002.BroadcastsInDim S8192x2002 (![0, 1] : Fin 2 → Fin S8192x2002.rank)
  bcast_S_S8192 : S_.BroadcastsInDim S8192 (![] : Fin 0 → Fin S8192.rank)
  transposes_S1024x1024_S1024x1024_1_0 : S1024x1024.Transposes [1, 0] S1024x1024
  transposes_S8000x1024_S1024x8000_1_0 : S8000x1024.Transposes [1, 0] S1024x8000
  bcast_S8192_S8192x1_0 : S8192.BroadcastsInDim S8192x1 (![0] : Fin 1 → Fin S8192x1.rank)
  bcast_S8192x1_S8192x8000_0_1 : S8192x1.BroadcastsInDim S8192x8000 (![0, 1] : Fin 2 → Fin S8192x8000.rank)
  transposes_S256x1024_S1024x256_1_0 : S256x1024.Transposes [1, 0] S1024x256
  transposes_S20000x256_S256x20000_1_0 : S20000x256.Transposes [1, 0] S256x20000
  bcast_S8192x1_S8192x20000_0_1 : S8192x1.BroadcastsInDim S8192x20000 (![0, 1] : Fin 2 → Fin S8192x20000.rank)
  dot_S8192x1024_S1024x2002_S8192x2002_1_0_0_1_n_n_wf : DotDims.WF S8192x1024 S1024x2002 S8192x2002 [1] [0] [0] [1] [] []
  dot_S8192x1024_S1024x1024_S8192x1024_1_0_0_1_n_n_wf : DotDims.WF S8192x1024 S1024x1024 S8192x1024 [1] [0] [0] [1] [] []
  dot_S8192x1024_S1024x8000_S8192x8000_1_0_0_1_n_n_wf : DotDims.WF S8192x1024 S1024x8000 S8192x8000 [1] [0] [0] [1] [] []
  dot_S8192x1024_S1024x256_S8192x256_1_0_0_1_n_n_wf : DotDims.WF S8192x1024 S1024x256 S8192x256 [1] [0] [0] [1] [] []
  dot_S8192x256_S256x20000_S8192x20000_1_0_0_1_n_n_wf : DotDims.WF S8192x256 S256x20000 S8192x20000 [1] [0] [0] [1] [] []

variable [Facts₀]

def dot_S8192x1024_S1024x2002_S8192x2002_1_0_0_1_n_n : DotDims S8192x1024 S1024x2002 S8192x2002 where
  lhsContracting := [1]
  rhsContracting := [0]
  lhsNonContracting := [0]
  rhsNonContracting := [1]
  lhsBatch := []
  rhsBatch := []
  wf := dot_S8192x1024_S1024x2002_S8192x2002_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8000_S8192x8000_1_0_0_1_n_n : DotDims S8192x1024 S1024x8000 S8192x8000 where
  lhsContracting := [1]
  rhsContracting := [0]
  lhsNonContracting := [0]
  rhsNonContracting := [1]
  lhsBatch := []
  rhsBatch := []
  wf := dot_S8192x1024_S1024x8000_S8192x8000_1_0_0_1_n_n_wf
def dot_S8192x1024_S1024x256_S8192x256_1_0_0_1_n_n : DotDims S8192x1024 S1024x256 S8192x256 where
  lhsContracting := [1]
  rhsContracting := [0]
  lhsNonContracting := [0]
  rhsNonContracting := [1]
  lhsBatch := []
  rhsBatch := []
  wf := dot_S8192x1024_S1024x256_S8192x256_1_0_0_1_n_n_wf
def dot_S8192x256_S256x20000_S8192x20000_1_0_0_1_n_n : DotDims S8192x256 S256x20000 S8192x20000 where
  lhsContracting := [1]
  rhsContracting := [0]
  lhsNonContracting := [0]
  rhsNonContracting := [1]
  lhsBatch := []
  rhsBatch := []
  wf := dot_S8192x256_S256x20000_S8192x20000_1_0_0_1_n_n_wf

class Facts : Prop extends Facts₀ where

variable [Facts]
-- ==== Proof.KernelRun.lean ====
/-
  The idealized kernel's run, read at every buffer.

  @main is a stretch of host operations followed by two kernel regions.  The buffer contents fold through those
  three segments — the launch memory, then the host operations' results, then each region's arrays at what its
  write-backs leave — and end at the contents `W3`.  The launch over the three segments is read here at EVERY
  buffer that outlives the kernels, so that the three result arrays are named: the first region's two output
  windows (the head logits and the first tail cluster) and the second region's one (the second tail cluster),
  each as its pipeline's fold of written-back blocks; the argument arrays walk back to the launch memory.
-/
import proofs.«157948_j25168508355076_2_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in its final memory every buffer that outlives the kernels
    holds the last boundary's contents `W3`: the launch over the three segments, the last thread state read against
    the final state at every such buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The first region's sixth window stages the head-logit array and nothing after that region writes it: at the last
    boundary it holds that pipeline's fold of written-back blocks. -/
theorem W3_head (c : Dev nD) : W3 m ρ c (Proc.devRef .tc main_v20_0) = (dat0 (V1 m ρ) c).arrAt 6 cfg0.N :=
  (W3_of_ne m ρ c main_v20_0 (by decide)).trans (W2_arr m ρ c 6)

/-- The same for the seventh window, the first tail cluster's array. -/
theorem W3_tail0 (c : Dev nD) : W3 m ρ c (Proc.devRef .tc main_v20_1) = (dat0 (V1 m ρ) c).arrAt 7 cfg0.N :=
  (W3_of_ne m ρ c main_v20_1 (by decide)).trans (W2_arr m ρ c 7)

/-- The second region's fourth window stages the second tail cluster's array. -/
theorem W3_tail1 (c : Dev nD) : W3 m ρ c (Proc.devRef .tc main_v21) = (dat1 (V2 m ρ) c).arrAt 4 cfg1.N :=
  W3_arr m ρ c 4

/-- The run with the three result arrays named as their pipelines' folds and the arguments as launched. -/
theorem run_folds : θ_run defs (onTc (τ := τ) (main (F := F))) ⟨m, fun _ => 0, ρ⟩ (fun r => ∀ c : Dev nD,
      r.2.mem ((c.tc : Thread nD τ).loc main_v20_0) = (dat0 (V1 m ρ) c).arrAt 6 cfg0.N
      ∧ r.2.mem ((c.tc : Thread nD τ).loc main_v20_1) = (dat0 (V1 m ρ) c).arrAt 7 cfg0.N
      ∧ r.2.mem ((c.tc : Thread nD τ).loc main_v21) = (dat1 (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c _ (mem_uc main_v20_0 (by decide))).trans (W3_head m ρ c),
       (h c _ (mem_uc main_v20_1 (by decide))).trans (W3_tail0 m ρ c),
       (h c _ (mem_uc main_v21 (by decide))).trans (W3_tail1 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c)⟩)
    (run_all m ρ)

end Cert.KernelIdeal.Outputs

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowWeights.lean ====
/-
  A linear layer whose weights are kept one ROW per output, and a linear layer masked by a 0/1 factor.

  A layer's weights `w` have shape [N, K]: one row of K coefficients per output.  The layer applied to the rows
  of `x` ([M, K]) is the product `x · wᵀ`, whose (r, j) entry is the sum over k of `x (r, k) · w (j, k)`.
  Two machines compute that entry:

  * a matrix unit's product into a zero accumulator that contracts BOTH operands along their last axis
    (`matmul_rowWeights_apply`), and
  * a general dot product of `x` with the transposed array `wᵀ`, contracting the left operand's last axis
    with the right operand's first (that side is read by the reference's own generated lemmas; here only the
    name `tr w` for the transposed array).

  The second half is the one algebraic law about a factor that is 0 or 1 (`sum_mul_bit`): multiplying every
  term's left factor by it before a sum of products is multiplying the sum by it — for 1 nothing changes, for
  0 both sides are 0, because on the extended reals 0 times anything, infinities included, is 0.  No finiteness
  is needed.  `uitofp_bit`: a one-bit integer converted to a float is such a factor.
-/
import proofs.«157948_j25168508355076_2_alg».proof.Proof.LibRowsTimes

noncomputable section

namespace Cert.RowWeights

open Idealize.ShloMosaic Idealize.ShloMosaic.ValueIdx Cert.Dense

/-- The [K, N] array whose (k, j) entry is `w (j, k)`: weights kept one row per output, read as the right
    factor of a product. -/
def tr {N K : Nat} (w : (⟨2, ![N, K]⟩ : Shape).Idx → EReal) : (⟨2, ![K, N]⟩ : Shape).Idx → EReal :=
  fun i => w (ix2 (i 1 : Fin N) (i 0 : Fin K))

/-- Its (k, j) entry, spelt out. -/
theorem tr_apply {N K : Nat} (w : (⟨2, ![N, K]⟩ : Shape).Idx → EReal) (k : Fin K) (j : Fin N) :
    tr w (ix2 k j) = w (ix2 j k) := rfl

/-- The operand indices of a contraction of an [M, K] array with an [N, K] array along both last axes, at the
    output index `i` and contraction index `q`: (i 0, q) on the left and (i 1, q) on the right. -/
theorem rowWeights_idx {M K N : Nat} (d : DotDims ⟨2, ![M, K]⟩ ⟨2, ![N, K]⟩ ⟨2, ![M, N]⟩)
    (wf : DotDims.WF ⟨2, ![M, K]⟩ ⟨2, ![N, K]⟩ ⟨2, ![M, N]⟩ [1] [1] [0] [0] [] [])
    (hd : d = ⟨[1], [1], [0], [0], [], [], wf⟩) (i : (⟨2, ![M, N]⟩ : Shape).Idx) (q : d.contr.Idx) :
    (d.lhsIdx i q 0).val = (i 0).val ∧ (d.lhsIdx i q 1).val = (q ⟨0, by subst hd; exact Nat.one_pos⟩).val
      ∧ (d.rhsIdx i q 0).val = (i 1).val ∧ (d.rhsIdx i q 1).val = (q ⟨0, by subst hd; exact Nat.one_pos⟩).val := by
  subst hd
  refine ⟨?_, DotDims.lhsIdx_val_of_single _ rfl i q, ?_, DotDims.rhsIdx_val_of_single _ rfl i q⟩
  · unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  · unfold DotDims.rhsIdx
    rw [dif_neg (show ¬ (0 : Fin 2) ∈ ([] : List (Fin 2)) from List.not_mem_nil),
      dif_pos (show (0 : Fin 2) ∈ ([0] : List (Fin 2)) from List.mem_singleton.mpr rfl)]
    rfl

/-- A matrix unit's product of `x` ([M, K]) and `w` ([N, K]) into the zero accumulator, both contracted along
    their last axis, read at (p, q) on the extended reals: the (p, q) entry of `x · wᵀ`. -/
theorem matmul_rowWeights_apply {M K N : Nat} {φ₁ φ₂ : FTy} (d : DotDims ⟨2, ![M, K]⟩ ⟨2, ![N, K]⟩ ⟨2, ![M, N]⟩)
    (wf : DotDims.WF ⟨2, ![M, K]⟩ ⟨2, ![N, K]⟩ ⟨2, ![M, N]⟩ [1] [1] [0] [0] [] [])
    (hd : d = ⟨[1], [1], [0], [0], [], [], wf⟩) (prec : Option ContractPrecision)
    (x : FVec Ideal ⟨2, ![M, K]⟩ φ₁) (w : FVec Ideal ⟨2, ![N, K]⟩ φ₂) (p : Fin M) (q : Fin N) :
    FloatOps.matmul d prec x w (constant (F := Ideal) ⟨2, ![M, N]⟩ .f32 0x00000000#32) (ix2 p q)
      = rowsTimes x (tr w) (ix2 p q) := by
  have hr : d.contr.rank = 1 := by subst hd; rfl
  have hs : d.contr.size ⟨0, by omega⟩ = K := by subst hd; rfl
  refine (Ideal.matmul_constant_zero_apply d prec x w (ix2 p q)).trans
    (contraction_eq d hr hs x (tr w) x w (ix2 p q) (ix2 p q) (fun k => ?_) (fun k => ?_))
  · obtain ⟨e0, e1, -, -⟩ := rowWeights_idx d wf hd (ix2 p q) ((contrEquiv1 d K hr hs).symm k)
    have hk := contrEquiv1_symm_val d K hr hs k
    refine congrArg x (funext fun a => Fin.ext ?_)
    match a with
    | ⟨0, _⟩ => exact e0
    | ⟨1, _⟩ => exact e1.trans hk
  · obtain ⟨-, -, e2, e3⟩ := rowWeights_idx d wf hd (ix2 p q) ((contrEquiv1 d K hr hs).symm k)
    have hk := contrEquiv1_symm_val d K hr hs k
    refine congrArg w (funext fun a => Fin.ext ?_)
    match a with
    | ⟨0, _⟩ => exact e2
    | ⟨1, _⟩ => exact e3.trans hk

/-- A factor that is 0 or 1, applied to every term's left factor before a sum of products, is the same factor
    applied to the sum. -/
theorem sum_mul_bit {ι : Type} [Fintype ι] (h w : ι → EReal) (μ : EReal) (hμ : μ = 0 ∨ μ = 1) :
    ∑ k, (h k * μ) * w k = (∑ k, h k * w k) * μ := by
  rcases hμ with rfl | rfl
  · simp only [mul_zero, zero_mul, Finset.sum_const_zero]
  · simp only [mul_one]

/-- A one-bit integer converted to a float is 0 or 1. -/
theorem uitofp_bit (φ : FTy) (b : BitVec 1) :
    FloatOps.uitofp (F := Ideal) φ b = 0 ∨ FloatOps.uitofp (F := Ideal) φ b = 1 := by
  show (((b.toNat : ℝ) : EReal)) = 0 ∨ (((b.toNat : ℝ) : EReal)) = 1
  rcases BitVec.eq_zero_or_eq_one b with h | h <;> subst h
  · left; simp
  · right; simp

end Cert.RowWeights

end
-- ==== Proof.Clusters.lean ====
/-
  The three results, as functions of the argument arrays, index by index, on the extended reals.

  `x` is the [M, K] array of inputs, one row per example.  A cluster's membership factor `μ` has one entry per
  example, 0 or 1.

  * The head: `x · wᵀ + b`, the bias `b` kept as a one-row matrix and repeated down the rows.
  * A tail cluster, two linear layers `w1` ([H, K]) then `w2` ([N, H]) with no bias and nothing between them.
    One program multiplies each example's HIDDEN row `(x · w1ᵀ) (r, ·)` by the example's factor and then
    applies the second layer (`tailMaskedFirst`); the other applies both layers and multiplies the OUTPUT row by
    the factor (`tailMaskedLast`).  The second layer is a sum of products whose left factors all carry the same
    0/1 factor, so the two agree (`tailMaskedFirst_eq_last`): with factor 1 nothing is changed on either side,
    and with factor 0 every product on the one side, and the whole sum on the other, is 0 — on the extended
    reals 0 times an infinity is still 0, so no entry needs to be finite.
-/
import proofs.«157948_j25168508355076_2_alg».proof.Proof.LibRowWeights

noncomputable section

namespace Cert.Clusters

open Idealize.ShloMosaic Idealize.ShloMosaic.ValueIdx Cert.Dense Cert.RowWeights

/-- `x · wᵀ + b`: the (r, j) entry is `∑ k, x (r, k) · w (j, k)` plus `b (0, j)`. -/
def headLogits {M K N : Nat} (x : (⟨2, ![M, K]⟩ : Shape).Idx → EReal) (w : (⟨2, ![N, K]⟩ : Shape).Idx → EReal)
    (b : (⟨2, ![1, N]⟩ : Shape).Idx → EReal) : (⟨2, ![M, N]⟩ : Shape).Idx → EReal :=
  fun i => rowsTimes x (tr w) i + b (ix2 (0 : Fin 1) (i 1 : Fin N))

/-- The hidden activations `x · w1ᵀ` with row r multiplied by example r's factor. -/
def maskedHidden {M K H : Nat} (x : (⟨2, ![M, K]⟩ : Shape).Idx → EReal) (w1 : (⟨2, ![H, K]⟩ : Shape).Idx → EReal)
    (μ : (⟨1, ![M]⟩ : Shape).Idx → EReal) : (⟨2, ![M, H]⟩ : Shape).Idx → EReal :=
  fun j => rowsTimes x (tr w1) j * μ (ix1 (j 0 : Fin M))

/-- Mask the hidden rows, then apply the second layer. -/
def tailMaskedFirst {M K H N : Nat} (x : (⟨2, ![M, K]⟩ : Shape).Idx → EReal) (w1 : (⟨2, ![H, K]⟩ : Shape).Idx → EReal)
    (w2 : (⟨2, ![N, H]⟩ : Shape).Idx → EReal) (μ : (⟨1, ![M]⟩ : Shape).Idx → EReal) : (⟨2, ![M, N]⟩ : Shape).Idx → EReal :=
  rowsTimes (maskedHidden x w1 μ) (tr w2)

/-- Apply both layers, then mask the output rows. -/
def tailMaskedLast {M K H N : Nat} (x : (⟨2, ![M, K]⟩ : Shape).Idx → EReal) (w1 : (⟨2, ![H, K]⟩ : Shape).Idx → EReal)
    (w2 : (⟨2, ![N, H]⟩ : Shape).Idx → EReal) (μ : (⟨1, ![M]⟩ : Shape).Idx → EReal) : (⟨2, ![M, N]⟩ : Shape).Idx → EReal :=
  fun i => rowsTimes (rowsTimes x (tr w1)) (tr w2) i * μ (ix1 (i 0 : Fin M))

/-- A cluster's membership factor: example r's factor is the one-bit test `lo ≤ t r < hi` (signed) of its target word
    `t r`, converted to a float — so 1 inside the cluster's range and 0 outside. -/
def inRange {M : Nat} (lo hi : BitVec 32) (t : (⟨1, ![M]⟩ : Shape).Idx → BitVec 32) : (⟨1, ![M]⟩ : Shape).Idx → EReal :=
  fun r => FloatOps.uitofp (F := Ideal) .f32 (IntOp.andi (IntOp.cmpi .sge (t r) lo) (IntOp.cmpi .slt (t r) hi))

theorem inRange_bit {M : Nat} (lo hi : BitVec 32) (t : (⟨1, ![M]⟩ : Shape).Idx → BitVec 32) (r : Fin M) :
    inRange lo hi t (ix1 r) = 0 ∨ inRange lo hi t (ix1 r) = 1 :=
  uitofp_bit .f32 _

/-- With a 0/1 factor per example the two orders give the same array. -/
theorem tailMaskedFirst_eq_last {M K H N : Nat} (x : (⟨2, ![M, K]⟩ : Shape).Idx → EReal) (w1 : (⟨2, ![H, K]⟩ : Shape).Idx → EReal)
    (w2 : (⟨2, ![N, H]⟩ : Shape).Idx → EReal) (μ : (⟨1, ![M]⟩ : Shape).Idx → EReal)
    (hμ : ∀ r : Fin M, μ (ix1 r) = 0 ∨ μ (ix1 r) = 1) :
    tailMaskedFirst x w1 w2 μ = tailMaskedLast x w1 w2 μ := by
  funext i
  exact sum_mul_bit (fun k : Fin H => rowsTimes x (tr w1) (ix2 (i 0 : Fin M) k)) (fun k : Fin H => tr w2 (ix2 k (i 1 : Fin N)))
    (μ (ix1 (i 0 : Fin M))) (hμ (i 0))

/-- Rows of the head are heads of rows: a block `x0` of R input rows whose row `j 0` is row `i 0` of `x`, pushed
    through the same weights and bias, gives at column `j 1 = i 1` the whole-array head at `i`. -/
theorem headLogits_of_rows {R M K N : Nat} (x : (⟨2, ![M, K]⟩ : Shape).Idx → EReal) (w : (⟨2, ![N, K]⟩ : Shape).Idx → EReal)
    (b : (⟨2, ![1, N]⟩ : Shape).Idx → EReal) (x0 : (⟨2, ![R, K]⟩ : Shape).Idx → EReal)
    (j : (⟨2, ![R, N]⟩ : Shape).Idx) (i : (⟨2, ![M, N]⟩ : Shape).Idx)
    (hx : ∀ k : Fin K, x0 (ix2 (j 0 : Fin R) k) = x (ix2 (i 0 : Fin M) k))
    (hc : (j 1 : Fin N) = (i 1 : Fin N)) :
    rowsTimes x0 (tr w) j + b (ix2 (0 : Fin 1) (j 1 : Fin N)) = headLogits x w b i := by
  refine congrArg₂ (· + ·) (rowsTimes_of_rows x (tr w) x0 (tr w) j i hx fun k => ?_) ?_
  · show w (ix2 (j 1 : Fin N) k) = w (ix2 (i 1 : Fin N) k)
    rw [hc]
  · show b (ix2 (0 : Fin 1) (j 1 : Fin N)) = b (ix2 (0 : Fin 1) (i 1 : Fin N))
    rw [hc]

/-- The same for a tail cluster masked on its hidden rows, the factors kept as a one-column matrix: a block of R
    input rows with the block's R factors gives the whole-array result at the matching row. -/
theorem tailMaskedFirst_of_rows {R M K H N : Nat} (x : (⟨2, ![M, K]⟩ : Shape).Idx → EReal) (w1 : (⟨2, ![H, K]⟩ : Shape).Idx → EReal)
    (w2 : (⟨2, ![N, H]⟩ : Shape).Idx → EReal) (μ : (⟨2, ![M, 1]⟩ : Shape).Idx → EReal)
    (x0 : (⟨2, ![R, K]⟩ : Shape).Idx → EReal) (μ0 : (⟨2, ![R, 1]⟩ : Shape).Idx → EReal)
    (j : (⟨2, ![R, N]⟩ : Shape).Idx) (i : (⟨2, ![M, N]⟩ : Shape).Idx)
    (hx : ∀ k : Fin K, x0 (ix2 (j 0 : Fin R) k) = x (ix2 (i 0 : Fin M) k))
    (hμ : μ0 (ix2 (j 0 : Fin R) (0 : Fin 1)) = μ (ix2 (i 0 : Fin M) (0 : Fin 1)))
    (hc : (j 1 : Fin N) = (i 1 : Fin N)) :
    rowsTimes (fun y => rowsTimes x0 (tr w1) y * μ0 (ix2 (y 0 : Fin R) (0 : Fin 1))) (tr w2) j
      = tailMaskedFirst x w1 w2 (fun r => μ (ix2 (r 0 : Fin M) (0 : Fin 1))) i := by
  refine rowsTimes_of_rows (maskedHidden x w1 fun r => μ (ix2 (r 0 : Fin M) (0 : Fin 1))) (tr w2) _ (tr w2) j i
    (fun k => ?_) (fun k => ?_)
  · exact congrArg₂ (· * ·)
      (rowsTimes_of_rows x (tr w1) x0 (tr w1) (ix2 (j 0 : Fin R) k) (ix2 (i 0 : Fin M) k) hx fun _ => rfl) hμ
  · show w2 (ix2 (j 1 : Fin N) k) = w2 (ix2 (i 1 : Fin N) k)
    rw [hc]

end Cert.Clusters

end
-- ==== Proof.Blocks.lean ====
/-
  What one grid point's body computes, entry by entry, on the extended reals.

  The first kernel's body loads a block of 128 input rows `x0`, the head's weights `x1` and bias row `x2`, the first
  tail cluster's two weight arrays `x10` and `x18` and the block's 128 membership factors `x13` (a one-column
  matrix).  It stores two blocks: `x0 · x1ᵀ + x2` (the bias row repeated down the 128 rows), and
  `((x0 · x10ᵀ) with row r times x13 (r, 0)) · x18ᵀ`.  Every change of float format in between is the identity on
  the extended reals, every product into a zero accumulator is the plain sum of products, and the casts of a
  shape to itself are the identity.  The second kernel's body is the second of these on blocks of 64 rows.
  The `_point` forms state the same with the loaded blocks related to whole arrays: a block's row is a row of the
  whole input array, so the stored entry is the whole-array result at that row.
-/
import proofs.«157948_j25168508355076_2_alg».proof.Proof.Gen.KernelIdeal.Skeleton
import proofs.«157948_j25168508355076_2_alg».proof.Proof.LibColumnLayout
import proofs.«157948_j25168508355076_2_alg».proof.Proof.Clusters
import Idealize.ShloMosaic.Lib.Pipeline.Value
import Idealize.ShloMosaic.Lib.ValueLayout

noncomputable section

namespace Cert.KernelIdeal.Blocks

open Cert.KernelIdeal Cert.KernelIdeal.Gen
open Idealize.ShloMosaic Idealize.ShloMosaic.ValueIdx Idealize.ShloMosaic.ColumnLayout
open Cert.Dense Cert.RowWeights Cert.Clusters

/-- The head's stored block at (p, q): row p of the input block times weight row q, plus the bias at q. -/
theorem head_block (x0 : FVec Ideal S128x1024 .f32) (x1 : FVec Ideal S2002x1024 .bf16) (x2 : FVec Ideal S1x2002 .f32)
    (p : Fin 128) (q : Fin 2002) :
    k0_pay2 (F := Ideal) x0 x1 x2 (ix2 p q) = rowsTimes x0 (tr x1) (ix2 p q) + x2 (ix2 (0 : Fin 1) q) := by
  have h1 : matmul (φ₁ := .bf16) (φ₂ := .bf16) dot_S128x1024_S2002x1024_S128x2002_1_1_0_0_n_n none (k0_pay1 (F := Ideal) x0)
      (shapeCast S2002x1024 x1 shapeCasts_S2002x1024_S2002x1024) (constant (F := Ideal) S128x2002 .f32 0x00000000#32) (ix2 p q)
      = rowsTimes x0 (tr x1) (ix2 p q) := by
    rw [shapeCast_self]
    exact matmul_rowWeights_apply _ _ rfl none (k0_pay1 (F := Ideal) x0) x1 p q
  have h2 : broadcastTo S128x2002 (shapeCast S1x2002 x2 shapeCasts_S1x2002_S1x2002) broadcasts_S1x2002_S128x2002 (ix2 p q)
      = x2 (ix2 (0 : Fin 1) q) := by
    rw [shapeCast_self]
    exact broadcastTo_1b_ab_apply _ _ p q
  exact congrArg₂ (· + ·) h1 h2

/-- The first tail cluster's stored block at (p, q): the masked hidden row p times weight row q. -/
theorem tail0_block (x0 : FVec Ideal S128x1024 .f32) (x10 : FVec Ideal S1024x1024 .bf16) (x13 : FVec Ideal S128x1 .f32)
    (x18 : FVec Ideal S8000x1024 .bf16) (p : Fin 128) (q : Fin 8000) :
    k0_pay3 (F := Ideal) x0 x10 x13 x18 (ix2 p q)
      = rowsTimes (fun j => rowsTimes x0 (tr x10) j * x13 (ix2 (j 0 : Fin 128) (0 : Fin 1))) (tr x18) (ix2 p q) := by
  have hh : (truncf .bf16 (mulf (matmul (φ₁ := .bf16) (φ₂ := .bf16) dot_S128x1024_S1024x1024_S128x1024_1_1_0_0_n_n none (k0_pay1 (F := Ideal) x0)
        (shapeCast S1024x1024 x10 shapeCasts_S1024x1024_S1024x1024) (constant (F := Ideal) S128x1024 .f32 0x00000000#32))
        (broadcastTo S128x1024 (shapeCast S128x1 x13 shapeCasts_S128x1_S128x1) broadcasts_S128x1_S128x1024)) bitsLt_bf16_f32
        : FVec Ideal S128x1024 .bf16)
      = fun j => rowsTimes x0 (tr x10) j * x13 (ix2 (j 0 : Fin 128) (0 : Fin 1)) := by
    funext j
    obtain ⟨a, k, rfl⟩ : ∃ (a : Fin 128) (k : Fin 1024), j = ix2 a k := ⟨j 0, j 1, eq_ix2 j⟩
    rw [shapeCast_self, shapeCast_self]
    exact congrArg₂ (· * ·) (matmul_rowWeights_apply _ _ rfl none (k0_pay1 (F := Ideal) x0) x10 a k)
      (broadcastTo_a1_ab_apply x13 broadcasts_S128x1_S128x1024 a k)
  have h1 : matmul (φ₁ := .bf16) (φ₂ := .bf16) dot_S128x1024_S8000x1024_S128x8000_1_1_0_0_n_n none
      (truncf .bf16 (mulf (matmul (φ₁ := .bf16) (φ₂ := .bf16) dot_S128x1024_S1024x1024_S128x1024_1_1_0_0_n_n none (k0_pay1 (F := Ideal) x0)
        (shapeCast S1024x1024 x10 shapeCasts_S1024x1024_S1024x1024) (constant (F := Ideal) S128x1024 .f32 0x00000000#32))
        (broadcastTo S128x1024 (shapeCast S128x1 x13 shapeCasts_S128x1_S128x1) broadcasts_S128x1_S128x1024)) bitsLt_bf16_f32
        : FVec Ideal S128x1024 .bf16)
      (shapeCast S8000x1024 x18 shapeCasts_S8000x1024_S8000x1024) (constant (F := Ideal) S128x8000 .f32 0x00000000#32) (ix2 p q)
      = rowsTimes (fun j => rowsTimes x0 (tr x10) j * x13 (ix2 (j 0 : Fin 128) (0 : Fin 1))) (tr x18) (ix2 p q) := by
    rw [hh, shapeCast_self]
    exact matmul_rowWeights_apply _ _ rfl none _ x18 p q
  exact h1

/-- The second kernel's stored block at (p, q), on blocks of 64 rows and a hidden width of 256. -/
theorem tail1_block (x0 : FVec Ideal S64x1024 .f32) (x2 : FVec Ideal S256x1024 .bf16) (x5 : FVec Ideal S64x1 .f32)
    (x10 : FVec Ideal S20000x256 .bf16) (p : Fin 64) (q : Fin 20000) :
    k1_pay1 (F := Ideal) x0 x2 x5 x10 (ix2 p q)
      = rowsTimes (fun j => rowsTimes x0 (tr x2) j * x5 (ix2 (j 0 : Fin 64) (0 : Fin 1))) (tr x10) (ix2 p q) := by
  have hh : (truncf .bf16 (mulf (matmul (φ₁ := .bf16) (φ₂ := .bf16) dot_S64x1024_S256x1024_S64x256_1_1_0_0_n_n none
        (truncf .bf16 x0 bitsLt_bf16_f32 : FVec Ideal S64x1024 .bf16)
        (shapeCast S256x1024 x2 shapeCasts_S256x1024_S256x1024) (constant (F := Ideal) S64x256 .f32 0x00000000#32))
        (broadcastTo S64x256 (shapeCast S64x1 x5 shapeCasts_S64x1_S64x1) broadcasts_S64x1_S64x256)) bitsLt_bf16_f32
        : FVec Ideal S64x256 .bf16)
      = fun j => rowsTimes x0 (tr x2) j * x5 (ix2 (j 0 : Fin 64) (0 : Fin 1)) := by
    funext j
    obtain ⟨a, k, rfl⟩ : ∃ (a : Fin 64) (k : Fin 256), j = ix2 a k := ⟨j 0, j 1, eq_ix2 j⟩
    rw [shapeCast_self, shapeCast_self]
    exact congrArg₂ (· * ·) (matmul_rowWeights_apply _ _ rfl none (truncf .bf16 x0 bitsLt_bf16_f32 : FVec Ideal S64x1024 .bf16) x2 a k)
      (broadcastTo_a1_ab_apply x5 broadcasts_S64x1_S64x256 a k)
  have h1 : matmul (φ₁ := .bf16) (φ₂ := .bf16) dot_S64x256_S20000x256_S64x20000_1_1_0_0_n_n none
      (truncf .bf16 (mulf (matmul (φ₁ := .bf16) (φ₂ := .bf16) dot_S64x1024_S256x1024_S64x256_1_1_0_0_n_n none
        (truncf .bf16 x0 bitsLt_bf16_f32 : FVec Ideal S64x1024 .bf16)
        (shapeCast S256x1024 x2 shapeCasts_S256x1024_S256x1024) (constant (F := Ideal) S64x256 .f32 0x00000000#32))
        (broadcastTo S64x256 (shapeCast S64x1 x5 shapeCasts_S64x1_S64x1) broadcasts_S64x1_S64x256)) bitsLt_bf16_f32
        : FVec Ideal S64x256 .bf16)
      (shapeCast S20000x256 x10 shapeCasts_S20000x256_S20000x256) (constant (F := Ideal) S64x20000 .f32 0x00000000#32) (ix2 p q)
      = rowsTimes (fun j => rowsTimes x0 (tr x2) j * x5 (ix2 (j 0 : Fin 64) (0 : Fin 1))) (tr x10) (ix2 p q) := by
    rw [hh, shapeCast_self]
    exact matmul_rowWeights_apply _ _ rfl none _ x10 p q
  exact h1

end Cert.KernelIdeal.Blocks

end
-- ==== Proof.Region0.lean ====
/-
  The first kernel's two result arrays, as whole-array functions of the arrays the kernel finds.

  The grid has 64 points.  At point t the input window holds rows 128·t … 128·t+127 of the input array, the
  factor window the same rows of the one-column factor array, each weight window and the bias window its whole
  array, and the two output windows rows 128·t … 128·t+127 of their arrays.  A stored block's entry (p, q)
  depends on the input block only through its row p, which is row 128·t+p of the whole input: so what point t
  writes back is rows 128·t … of ONE whole-array function (the head, or the tail cluster masked on its hidden
  rows).  The 64 row blocks cover all 8192 rows, hence each output array ends as that function.
-/
import proofs.«157948_j25168508355076_2_alg».proof.Proof.Gen.KernelIdeal.Frame
import proofs.«157948_j25168508355076_2_alg».proof.Proof.Blocks
import Idealize.ShloMosaic.Lib.Pipeline.Value

set_option maxRecDepth 16384

noncomputable section

namespace Cert.KernelIdeal.Region0

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open Cert.Dense Cert.RowWeights Cert.Clusters

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 64 grid points: the row-blocked windows sit at block row t, column block 0; the
    weight and bias windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input windows' blocks, read off the arrays -/

/-- The input block at point t: its entry (y 0, y 1) is the input array's at row 128·t + y 0. -/
theorem read_x (c : Dev nD) (t : Fin cfg0.N) (y : S128x1024.Idx) (i : S8192x1024.Idx)
    (h0 : (i 0).val = t.val * 128 + (y 0).val) (h1 : (i 1).val = (y 1).val) :
    iblk0 V c 0 t y = V c main_arg0 i := by
  obtain ⟨e0, e1, -⟩ := idx_facts t
  show V c main_arg0 (((cfg0.win 0).blk t).view.emb y) = V c main_arg0 i
  refine congrArg _ (funext fun a => Fin.ext ?_)
  match a with
  | ⟨0, _⟩ => show win0_0.index t (0 : Fin 2) * 128 + 1 * (y 0).val = (i 0).val; omega
  | ⟨1, _⟩ => show win0_0.index t (1 : Fin 2) * 1024 + 1 * (y 1).val = (i 1).val; omega

/-- The head's weight window holds the whole weight array at every point. -/
theorem read_head_w (c : Dev nD) (t : Fin cfg0.N) : iblk0 V c 1 t = V c main_v14 := by
  obtain ⟨-, -, e0, e1, -⟩ := idx_facts t
  funext y
  show V c main_v14 (((cfg0.win 1).blk t).view.emb y) = V c main_v14 y
  refine congrArg _ (funext fun a => Fin.ext ?_)
  match a with
  | ⟨0, _⟩ => show win0_1.index t (0 : Fin 2) * 2002 + 1 * (y 0).val = (y 0).val; omega
  | ⟨1, _⟩ => show win0_1.index t (1 : Fin 2) * 1024 + 1 * (y 1).val = (y 1).val; omega

/-- The bias window holds the whole bias row. -/
theorem read_head_b (c : Dev nD) (t : Fin cfg0.N) : iblk0 V c 2 t = V c main_v19 := by
  obtain ⟨-, -, -, -, e0, e1, -⟩ := idx_facts t
  funext y
  show V c main_v19 (((cfg0.win 2).blk t).view.emb y) = V c main_v19 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 2002 + 1 * (y 1).val = (y 1).val; omega

/-- The tail cluster's first weight window holds its whole array. -/
theorem read_w1 (c : Dev nD) (t : Fin cfg0.N) : iblk0 V c 3 t = V c main_v15 := by
  obtain ⟨-, -, -, -, -, -, e0, e1, -⟩ := idx_facts t
  funext y
  show V c main_v15 (((cfg0.win 3).blk t).view.emb y) = V c main_v15 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 1024 + 1 * (y 1).val = (y 1).val; omega

/-- The tail cluster's second weight window holds its whole array. -/
theorem read_w2 (c : Dev nD) (t : Fin cfg0.N) : iblk0 V c 4 t = V c main_v16 := by
  obtain ⟨-, -, -, -, -, -, -, -, e0, e1, -⟩ := idx_facts t
  funext y
  show V c main_v16 (((cfg0.win 4).blk t).view.emb y) = V c main_v16 y
  refine congrArg _ (funext fun a => Fin.ext ?_)
  match a with
  | ⟨0, _⟩ => show win0_4.index t (0 : Fin 2) * 8000 + 1 * (y 0).val = (y 0).val; omega
  | ⟨1, _⟩ => show win0_4.index t (1 : Fin 2) * 1024 + 1 * (y 1).val = (y 1).val; omega

/-- The factor block at point t: its entry (y 0, y 1) is the factor column's at row 128·t + y 0. -/
theorem read_mask (c : Dev nD) (t : Fin cfg0.N) (y : S128x1.Idx) (i : S8192x1.Idx)
    (h0 : (i 0).val = t.val * 128 + (y 0).val) (h1 : (i 1).val = (y 1).val) :
    iblk0 V c 5 t y = V c main_v6 i := by
  obtain ⟨-, -, -, -, -, -, -, -, -, -, e0, e1, -⟩ := idx_facts t
  show V c main_v6 (((cfg0.win 5).blk t).view.emb y) = V c main_v6 i
  refine congrArg _ (funext fun a => Fin.ext ?_)
  match a with
  | ⟨0, _⟩ => show win0_5.index t (0 : Fin 2) * 128 + 1 * (y 0).val = (i 0).val; omega
  | ⟨1, _⟩ => show win0_5.index t (1 : Fin 2) * 1 + 1 * (y 1).val = (i 1).val; omega

/-! ## The head -/

/-- What point t writes back to the head's array is block t of the whole-array head. -/
theorem flushed_head (c : Dev nD) (t : Fin cfg0.N) :
    (dat0 V c).flushed 6 t
      = ((cfg0.win 6).blk t).view.read (Elt Ideal) (headLogits (V c main_arg0) (V c main_v14) (V c main_v19)) := by
  show (cfg0.win 6).cut (grid0.coords t) ((dat0 V c).after 6 t) = _
  rw [after0_6]
  unfold out0_6
  rw [View.canon_unit_zero hz]
  simp only [View.ld_unit_zero (S := S128x1024) hz, View.ld_unit_zero (S := S2002x1024) hz, View.ld_unit_zero (S := S1x2002) hz]
  rw [read_head_w V c t, read_head_b V c t]
  obtain ⟨-, -, -, -, -, -, -, -, -, -, -, -, e0, e1, -⟩ := idx_facts t
  funext j
  have hi0 : ((((cfg0.win 6).blk t).view.emb j) 0).val = t.val * 128 + (j 0).val := by
    show win0_6.index t (0 : Fin 2) * 128 + 1 * (j 0).val = _; omega
  have hi1 : ((((cfg0.win 6).blk t).view.emb j) 1).val = (j 1).val := by
    show win0_6.index t (1 : Fin 2) * 2002 + 1 * (j 1).val = _; omega
  refine ((congrArg (k0_pay2 (F := Ideal) (iblk0 V c 0 t) (V c main_v14) (V c main_v19)) (eq_ix2 (n0 := 128) (n1 := 2002) j)).trans
    (head_block (iblk0 V c 0 t) (V c main_v14) (V c main_v19) (j 0) (j 1))).trans ?_
  exact headLogits_of_rows (V c main_arg0) (V c main_v14) (V c main_v19) (iblk0 V c 0 t) j (((cfg0.win 6).blk t).view.emb j)
    (fun k => read_x V c t _ _ hi0 rfl) (Fin.ext hi1.symm)

/-- An index of the head's array is in point t's block iff each coordinate is in the block's range. -/
theorem mem_blk_head (t : Fin cfg0.N) (i : S8192x2002.Idx) :
    i ∈ ((cfg0.win 6).blk t).view.set ↔ ∀ a : Fin 2, win0_6.index t a * S128x2002.size a ≤ (i a).val ∧ (i a).val < win0_6.index t a * S128x2002.size a + S128x2002.size a := by
  show i ∈ ((View.whole main_v20_0).slice (win0_6.rect t)).set ↔ _
  rw [View.set_slice_whole, Rect.mem_set_unit]
  exact Iff.rfl

/-- Every row of the head's array is in the block of the point that owns it: row r in block r / 128. -/
theorem cover_head (i : S8192x2002.Idx) :
    ∃ t : Fin cfg0.N, (cfg0.win 6).flush t = true ∧ i ∈ ((cfg0.win 6).blk t).view.set := by
  have hi0 : (i 0).val < 8192 := (i 0).isLt
  have hi1 : (i 1).val < 2002 := (i 1).isLt
  have hN : grid0.N = 64 := N_0
  refine ⟨⟨(i 0).val / 128, by show (i 0).val / 128 < grid0.N; omega⟩, flush0_6 _, ?_⟩
  rw [mem_blk_head]
  obtain ⟨-, -, -, -, -, -, -, -, -, -, -, -, e0, e1, -⟩ := idx_facts ⟨(i 0).val / 128, by show (i 0).val / 128 < grid0.N; omega⟩
  have e0' : win0_6.index ⟨(i 0).val / 128, by show (i 0).val / 128 < grid0.N; omega⟩ (0 : Fin 2) = (i 0).val / 128 := e0
  intro a
  match a with
  | ⟨0, _⟩ => show win0_6.index _ (0 : Fin 2) * 128 ≤ (i 0).val ∧ (i 0).val < win0_6.index _ (0 : Fin 2) * 128 + 128; omega
  | ⟨1, _⟩ => show win0_6.index _ (1 : Fin 2) * 2002 ≤ (i 1).val ∧ (i 1).val < win0_6.index _ (1 : Fin 2) * 2002 + 2002; omega

/-- The head's array after the region. -/
theorem final_head (c : Dev nD) :
    (dat0 V c).arrAt 6 cfg0.N = headLogits (V c main_arg0) (V c main_v14) (V c main_v19) :=
  (dat0 V c).arrAt_eq_of_cover 6 _ (fun t _ => flushed_head V c t) cover_head

/-! ## The first tail cluster -/

/-- What point t writes back to the tail cluster's array is block t of the whole-array result. -/
theorem flushed_tail (c : Dev nD) (t : Fin cfg0.N) :
    (dat0 V c).flushed 7 t
      = ((cfg0.win 7).blk t).view.read (Elt Ideal)
          (tailMaskedFirst (V c main_arg0) (V c main_v15) (V c main_v16) (fun r => V c main_v6 (ix2 (r 0 : Fin 8192) (0 : Fin 1)))) := by
  show (cfg0.win 7).cut (grid0.coords t) ((dat0 V c).after 7 t) = _
  rw [after0_7]
  unfold out0_7
  rw [View.canon_unit_zero hz]
  simp only [View.ld_unit_zero (S := S128x1024) hz, View.ld_unit_zero (S := S1024x1024) hz, View.ld_unit_zero (S := S128x1) hz,
    View.ld_unit_zero (S := S8000x1024) hz]
  rw [read_w1 V c t, read_w2 V c t]
  obtain ⟨-, -, -, -, -, -, -, -, -, -, -, -, -, -, e0, e1⟩ := idx_facts t
  funext j
  have hi0 : ((((cfg0.win 7).blk t).view.emb j) 0).val = t.val * 128 + (j 0).val := by
    show win0_7.index t (0 : Fin 2) * 128 + 1 * (j 0).val = _; omega
  have hi1 : ((((cfg0.win 7).blk t).view.emb j) 1).val = (j 1).val := by
    show win0_7.index t (1 : Fin 2) * 8000 + 1 * (j 1).val = _; omega
  refine ((congrArg (k0_pay3 (F := Ideal) (iblk0 V c 0 t) (V c main_v15) (iblk0 V c 5 t) (V c main_v16)) (eq_ix2 (n0 := 128) (n1 := 8000) j)).trans
    (tail0_block (iblk0 V c 0 t) (V c main_v15) (iblk0 V c 5 t) (V c main_v16) (j 0) (j 1))).trans ?_
  exact tailMaskedFirst_of_rows (V c main_arg0) (V c main_v15) (V c main_v16) (V c main_v6) (iblk0 V c 0 t) (iblk0 V c 5 t) j
    (((cfg0.win 7).blk t).view.emb j) (fun k => read_x V c t _ _ hi0 rfl) (read_mask V c t _ _ hi0 rfl) (Fin.ext hi1.symm)

theorem mem_blk_tail (t : Fin cfg0.N) (i : S8192x8000.Idx) :
    i ∈ ((cfg0.win 7).blk t).view.set ↔ ∀ a : Fin 2, win0_7.index t a * S128x8000.size a ≤ (i a).val ∧ (i a).val < win0_7.index t a * S128x8000.size a + S128x8000.size a := by
  show i ∈ ((View.whole main_v20_1).slice (win0_7.rect t)).set ↔ _
  rw [View.set_slice_whole, Rect.mem_set_unit]
  exact Iff.rfl

theorem cover_tail (i : S8192x8000.Idx) :
    ∃ t : Fin cfg0.N, (cfg0.win 7).flush t = true ∧ i ∈ ((cfg0.win 7).blk t).view.set := by
  have hi0 : (i 0).val < 8192 := (i 0).isLt
  have hi1 : (i 1).val < 8000 := (i 1).isLt
  have hN : grid0.N = 64 := N_0
  refine ⟨⟨(i 0).val / 128, by show (i 0).val / 128 < grid0.N; omega⟩, flush0_7 _, ?_⟩
  rw [mem_blk_tail]
  obtain ⟨-, -, -, -, -, -, -, -, -, -, -, -, -, -, e0, e1⟩ := idx_facts ⟨(i 0).val / 128, by show (i 0).val / 128 < grid0.N; omega⟩
  have e0' : win0_7.index ⟨(i 0).val / 128, by show (i 0).val / 128 < grid0.N; omega⟩ (0 : Fin 2) = (i 0).val / 128 := e0
  intro a
  match a with
  | ⟨0, _⟩ => show win0_7.index _ (0 : Fin 2) * 128 ≤ (i 0).val ∧ (i 0).val < win0_7.index _ (0 : Fin 2) * 128 + 128; omega
  | ⟨1, _⟩ => show win0_7.index _ (1 : Fin 2) * 8000 ≤ (i 1).val ∧ (i 1).val < win0_7.index _ (1 : Fin 2) * 8000 + 8000; omega

/-- The first tail cluster's array after the region. -/
theorem final_tail (c : Dev nD) :
    (dat0 V c).arrAt 7 cfg0.N
      = tailMaskedFirst (V c main_arg0) (V c main_v15) (V c main_v16) (fun r => V c main_v6 (ix2 (r 0 : Fin 8192) (0 : Fin 1))) :=
  (dat0 V c).arrAt_eq_of_cover 7 _ (fun t _ => flushed_tail V c t) cover_tail

end Cert.KernelIdeal.Region0

end
-- ==== Proof.Region1.lean ====
/-
  The second kernel's result array, as a whole-array function of the arrays the kernel finds.

  The grid has 128 points.  At point t the input window holds rows 64·t … 64·t+63 of the input array, the factor
  window the same rows of the second cluster's one-column factor array, the two weight windows their whole
  arrays, and the output window rows 64·t … 64·t+63 of its array.  As in the first kernel a stored entry (p, q)
  depends on the input block only through its row p, so point t writes back rows 64·t … of the whole-array tail
  cluster masked on its hidden rows, and the 128 row blocks cover all 8192 rows.
-/
import proofs.«157948_j25168508355076_2_alg».proof.Proof.Gen.KernelIdeal.Frame
import proofs.«157948_j25168508355076_2_alg».proof.Proof.Blocks
import Idealize.ShloMosaic.Lib.Pipeline.Value

set_option maxRecDepth 16384

noncomputable section

namespace Cert.KernelIdeal.Region1

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open Cert.Dense Cert.RowWeights Cert.Clusters

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 128 grid points: the row-blocked windows sit at block row t, column block 0; the
    weight windows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The input block at point t: its entry (y 0, y 1) is the input array's at row 64·t + y 0. -/
theorem read_x (c : Dev nD) (t : Fin cfg1.N) (y : S64x1024.Idx) (i : S8192x1024.Idx)
    (h0 : (i 0).val = t.val * 64 + (y 0).val) (h1 : (i 1).val = (y 1).val) :
    iblk1 V c 0 t y = V c main_arg0 i := by
  obtain ⟨e0, e1, -⟩ := idx_facts t
  show V c main_arg0 (((cfg1.win 0).blk t).view.emb y) = V c main_arg0 i
  refine congrArg _ (funext fun a => Fin.ext ?_)
  match a with
  | ⟨0, _⟩ => show win1_0.index t (0 : Fin 2) * 64 + 1 * (y 0).val = (i 0).val; omega
  | ⟨1, _⟩ => show win1_0.index t (1 : Fin 2) * 1024 + 1 * (y 1).val = (i 1).val; omega

/-- The first weight window holds its whole array at every point. -/
theorem read_w1 (c : Dev nD) (t : Fin cfg1.N) : iblk1 V c 1 t = V c main_v17 := by
  obtain ⟨-, -, e0, e1, -⟩ := idx_facts t
  funext y
  show V c main_v17 (((cfg1.win 1).blk t).view.emb y) = V c main_v17 y
  refine congrArg _ (funext fun a => Fin.ext ?_)
  match a with
  | ⟨0, _⟩ => show win1_1.index t (0 : Fin 2) * 256 + 1 * (y 0).val = (y 0).val; omega
  | ⟨1, _⟩ => show win1_1.index t (1 : Fin 2) * 1024 + 1 * (y 1).val = (y 1).val; omega

/-- The second weight window holds its whole array. -/
theorem read_w2 (c : Dev nD) (t : Fin cfg1.N) : iblk1 V c 2 t = V c main_v18 := by
  obtain ⟨-, -, -, -, e0, e1, -⟩ := idx_facts t
  funext y
  show V c main_v18 (((cfg1.win 2).blk t).view.emb y) = V c main_v18 y
  refine congrArg _ (funext fun a => Fin.ext ?_)
  match a with
  | ⟨0, _⟩ => show win1_2.index t (0 : Fin 2) * 20000 + 1 * (y 0).val = (y 0).val; omega
  | ⟨1, _⟩ => show win1_2.index t (1 : Fin 2) * 256 + 1 * (y 1).val = (y 1).val; omega

/-- The factor block at point t: its entry (y 0, y 1) is the factor column's at row 64·t + y 0. -/
theorem read_mask (c : Dev nD) (t : Fin cfg1.N) (y : S64x1.Idx) (i : S8192x1.Idx)
    (h0 : (i 0).val = t.val * 64 + (y 0).val) (h1 : (i 1).val = (y 1).val) :
    iblk1 V c 3 t y = V c main_v13 i := by
  obtain ⟨-, -, -, -, -, -, e0, e1, -⟩ := idx_facts t
  show V c main_v13 (((cfg1.win 3).blk t).view.emb y) = V c main_v13 i
  refine congrArg _ (funext fun a => Fin.ext ?_)
  match a with
  | ⟨0, _⟩ => show win1_3.index t (0 : Fin 2) * 64 + 1 * (y 0).val = (i 0).val; omega
  | ⟨1, _⟩ => show win1_3.index t (1 : Fin 2) * 1 + 1 * (y 1).val = (i 1).val; omega

/-- What point t writes back is block t of the whole-array result. -/
theorem flushed_tail (c : Dev nD) (t : Fin cfg1.N) :
    (dat1 V c).flushed 4 t
      = ((cfg1.win 4).blk t).view.read (Elt Ideal)
          (tailMaskedFirst (V c main_arg0) (V c main_v17) (V c main_v18) (fun r => V c main_v13 (ix2 (r 0 : Fin 8192) (0 : Fin 1)))) := by
  show (cfg1.win 4).cut (grid1.coords t) ((dat1 V c).after 4 t) = _
  rw [after1_4]
  unfold out1_4
  rw [View.canon_unit_zero hz]
  simp only [View.ld_unit_zero (S := S64x1024) hz, View.ld_unit_zero (S := S256x1024) hz, View.ld_unit_zero (S := S64x1) hz,
    View.ld_unit_zero (S := S20000x256) hz]
  rw [read_w1 V c t, read_w2 V c t]
  obtain ⟨-, -, -, -, -, -, -, -, e0, e1⟩ := idx_facts t
  funext j
  have hi0 : ((((cfg1.win 4).blk t).view.emb j) 0).val = t.val * 64 + (j 0).val := by
    show win1_4.index t (0 : Fin 2) * 64 + 1 * (j 0).val = _; omega
  have hi1 : ((((cfg1.win 4).blk t).view.emb j) 1).val = (j 1).val := by
    show win1_4.index t (1 : Fin 2) * 20000 + 1 * (j 1).val = _; omega
  refine ((congrArg (k1_pay1 (F := Ideal) (iblk1 V c 0 t) (V c main_v17) (iblk1 V c 3 t) (V c main_v18)) (eq_ix2 (n0 := 64) (n1 := 20000) j)).trans
    (tail1_block (iblk1 V c 0 t) (V c main_v17) (iblk1 V c 3 t) (V c main_v18) (j 0) (j 1))).trans ?_
  exact tailMaskedFirst_of_rows (V c main_arg0) (V c main_v17) (V c main_v18) (V c main_v13) (iblk1 V c 0 t) (iblk1 V c 3 t) j
    (((cfg1.win 4).blk t).view.emb j) (fun k => read_x V c t _ _ hi0 rfl) (read_mask V c t _ _ hi0 rfl) (Fin.ext hi1.symm)

theorem mem_blk_tail (t : Fin cfg1.N) (i : S8192x20000.Idx) :
    i ∈ ((cfg1.win 4).blk t).view.set ↔ ∀ a : Fin 2, win1_4.index t a * S64x20000.size a ≤ (i a).val ∧ (i a).val < win1_4.index t a * S64x20000.size a + S64x20000.size a := by
  show i ∈ ((View.whole main_v21).slice (win1_4.rect t)).set ↔ _
  rw [View.set_slice_whole, Rect.mem_set_unit]
  exact Iff.rfl

/-- Every row of the array is in the block of the point that owns it: row r in block r / 64. -/
theorem cover_tail (i : S8192x20000.Idx) :
    ∃ t : Fin cfg1.N, (cfg1.win 4).flush t = true ∧ i ∈ ((cfg1.win 4).blk t).view.set := by
  have hi0 : (i 0).val < 8192 := (i 0).isLt
  have hi1 : (i 1).val < 20000 := (i 1).isLt
  have hN : grid1.N = 128 := N_1
  refine ⟨⟨(i 0).val / 64, by show (i 0).val / 64 < grid1.N; omega⟩, flush1_4 _, ?_⟩
  rw [mem_blk_tail]
  obtain ⟨-, -, -, -, -, -, -, -, e0, e1⟩ := idx_facts ⟨(i 0).val / 64, by show (i 0).val / 64 < grid1.N; omega⟩
  have e0' : win1_4.index ⟨(i 0).val / 64, by show (i 0).val / 64 < grid1.N; omega⟩ (0 : Fin 2) = (i 0).val / 64 := e0
  intro a
  match a with
  | ⟨0, _⟩ => show win1_4.index _ (0 : Fin 2) * 64 ≤ (i 0).val ∧ (i 0).val < win1_4.index _ (0 : Fin 2) * 64 + 64; omega
  | ⟨1, _⟩ => show win1_4.index _ (1 : Fin 2) * 20000 ≤ (i 1).val ∧ (i 1).val < win1_4.index _ (1 : Fin 2) * 20000 + 20000; omega

/-- The second tail cluster's array after the region. -/
theorem final_tail (c : Dev nD) :
    (dat1 V c).arrAt 4 cfg1.N
      = tailMaskedFirst (V c main_arg0) (V c main_v17) (V c main_v18) (fun r => V c main_v13 (ix2 (r 0 : Fin 8192) (0 : Fin 1))) :=
  (dat1 V c).arrAt_eq_of_cover 4 _ (fun t _ => flushed_tail V c t) cover_tail

end Cert.KernelIdeal.Region1

end
-- ==== Proof.HostSide.lean ====
/-
  What the kernels find in the arrays the host operations prepare.

  Before the first kernel the host converts the five weight arrays to a narrower float format (the identity on the
  extended reals), gives the bias a leading unit axis ([2002] as [1, 2002]), and computes each tail cluster's
  membership factors from the targets — the one-bit test `lo ≤ target < hi` converted to a float — kept as a
  one-column matrix ([8192] as [8192, 1]).  The input array is used as launched.  The second kernel is entered
  from what the first one leaves: it reads the input array, which the first kernel only stages and never writes
  back, and three arrays the first kernel does not touch.
-/
import proofs.«157948_j25168508355076_2_alg».proof.Proof.Gen.KernelIdeal.Frame
import proofs.«157948_j25168508355076_2_alg».proof.Proof.LibColumnLayout
import proofs.«157948_j25168508355076_2_alg».proof.Proof.Clusters
import Idealize.ShloMosaic.Lib.StableHlo.Run
import Idealize.ShloMosaic.Lib.ValueLayout

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo
open Idealize.ShloMosaic.ValueIdx Idealize.ShloMosaic.ColumnLayout
open Cert.Clusters

variable (m : (ℓ : Loc nD τ sig) → Buf (Elt Ideal) ℓ) (ρ : Dev nD → PrngReg)

/-! ## At the first kernel's entry -/

theorem V1_x (c : Dev nD) : (V1 m ρ c main_arg0 : S8192x1024.Idx → EReal) = m ((c : Thread nD τ).loc main_arg0) := by
  dsimp only [V1, W1, hostOps0]; after_results

theorem V1_head_w (c : Dev nD) : (V1 m ρ c main_v14 : S2002x1024.Idx → EReal) = m ((c : Thread nD τ).loc main_arg2) := by
  dsimp only [V1, W1, hostOps0]; after_results; rfl

theorem V1_tail0_w1 (c : Dev nD) : (V1 m ρ c main_v15 : S1024x1024.Idx → EReal) = m ((c : Thread nD τ).loc main_arg4) := by
  dsimp only [V1, W1, hostOps0]; after_results; rfl

theorem V1_tail0_w2 (c : Dev nD) : (V1 m ρ c main_v16 : S8000x1024.Idx → EReal) = m ((c : Thread nD τ).loc main_arg5) := by
  dsimp only [V1, W1, hostOps0]; after_results; rfl

theorem V1_tail1_w1 (c : Dev nD) : (V1 m ρ c main_v17 : S256x1024.Idx → EReal) = m ((c : Thread nD τ).loc main_arg6) := by
  dsimp only [V1, W1, hostOps0]; after_results; rfl

theorem V1_tail1_w2 (c : Dev nD) : (V1 m ρ c main_v18 : S20000x256.Idx → EReal) = m ((c : Thread nD τ).loc main_arg7) := by
  dsimp only [V1, W1, hostOps0]; after_results; rfl

/-- The bias with its leading unit axis reads the bias at the column. -/
theorem V1_head_b (c : Dev nD) :
    (V1 m ρ c main_v19 : S1x2002.Idx → EReal) = fun y => m ((c : Thread nD τ).loc main_arg3) (ix1 (y 1 : Fin 2002)) := by
  have e : (V1 m ρ c main_v19 : S1x2002.Idx → EReal)
      = shapeCast S1x2002 (m ((c : Thread nD τ).loc main_arg3) : S2002.Idx → EReal) shapeCasts_S2002_S1x2002 := by
    dsimp only [V1, W1, hostOps0]; after_results; rfl
  rw [e]
  funext y
  obtain ⟨u, q, rfl⟩ : ∃ (u : Fin 1) (q : Fin 2002), y = ix2 u q := ⟨y 0, y 1, eq_ix2 y⟩
  exact shapeCast_a_1a_apply _ _ u q

/-- The first cluster's factor column reads, at row r, the range test of target r. -/
theorem V1_mask0 (c : Dev nD) :
    (fun r : S8192.Idx => (V1 m ρ c main_v6 : S8192x1.Idx → EReal) (ix2 (r 0 : Fin 8192) (0 : Fin 1)))
      = inRange 2000#32 10000#32 (m ((c : Thread nD τ).loc main_arg1)) := by
  have e : (V1 m ρ c main_v6 : S8192x1.Idx → EReal)
      = shapeCast S8192x1 (inRange 2000#32 10000#32 (m ((c : Thread nD τ).loc main_arg1)) : S8192.Idx → EReal) shapeCasts_S8192_S8192x1 := by
    dsimp only [V1, W1, hostOps0]; after_results; rfl
  rw [e]
  funext r
  obtain ⟨a, rfl⟩ : ∃ a : Fin 8192, r = ix1 a := ⟨r 0, eq_ix1 r⟩
  exact shapeCast_a_a1_apply _ _ a 0

/-- The second cluster's factor column. -/
theorem V1_mask1 (c : Dev nD) :
    (fun r : S8192.Idx => (V1 m ρ c main_v13 : S8192x1.Idx → EReal) (ix2 (r 0 : Fin 8192) (0 : Fin 1)))
      = inRange 10000#32 30000#32 (m ((c : Thread nD τ).loc main_arg1)) := by
  have e : (V1 m ρ c main_v13 : S8192x1.Idx → EReal)
      = shapeCast S8192x1 (inRange 10000#32 30000#32 (m ((c : Thread nD τ).loc main_arg1)) : S8192.Idx → EReal) shapeCasts_S8192_S8192x1 := by
    dsimp only [V1, W1, hostOps0]; after_results; rfl
  rw [e]
  funext r
  obtain ⟨a, rfl⟩ : ∃ a : Fin 8192, r = ix1 a := ⟨r 0, eq_ix1 r⟩
  exact shapeCast_a_a1_apply _ _ a 0

/-! ## At the second kernel's entry -/

/-- The first kernel stages the input array and never writes it back. -/
theorem V2_x (c : Dev nD) : V2 m ρ c main_arg0 = V1 m ρ c main_arg0 :=
  (W2_arr m ρ c 0).trans (((dat0 (V1 m ρ) c).arrAt_in 0 rfl _).trans (A_eq0 (V1 m ρ) c 0))

theorem V2_tail1_w1 (c : Dev nD) : V2 m ρ c main_v17 = V1 m ρ c main_v17 := W2_of_ne m ρ c main_v17 (by decide)
theorem V2_tail1_w2 (c : Dev nD) : V2 m ρ c main_v18 = V1 m ρ c main_v18 := W2_of_ne m ρ c main_v18 (by decide)
theorem V2_mask1 (c : Dev nD) : V2 m ρ c main_v13 = V1 m ρ c main_v13 := W2_of_ne m ρ c main_v13 (by decide)

end Cert.KernelIdeal.HostSide

end
-- ==== Proof.KernelValue.lean ====
/-
  The idealized kernel's three results as functions of the argument arrays.

  The run names each result array as its pipeline's fold of written-back blocks; each fold is one whole-array
  function of the arrays its kernel finds; and those arrays are the arguments — the input as launched, the weights
  through an identity format change, the bias read at the column, the membership factors the range test of the
  targets.  Together: the head is `x · head_wᵀ + head_b`, and each tail cluster is its two layers applied to the
  inputs with the hidden rows multiplied by the cluster's factors.
-/
import proofs.«157948_j25168508355076_2_alg».proof.Proof.KernelRun
import proofs.«157948_j25168508355076_2_alg».proof.Proof.Region0
import proofs.«157948_j25168508355076_2_alg».proof.Proof.Region1
import proofs.«157948_j25168508355076_2_alg».proof.Proof.HostSide

set_option maxRecDepth 16384

noncomputable section

namespace Cert.KernelIdeal.Results

open Cert.KernelIdeal Cert.KernelIdeal.Gen Cert.KernelIdeal.HostSide
open Idealize.ShloMosaic Idealize.ShloMosaic.TcCoe Idealize.SL.Sem Idealize.ShloMosaic.ValueIdx
open Cert.Clusters

variable (m : (ℓ : Loc nD τ sig) → Buf (Elt Ideal) ℓ) (ρ : Dev nD → PrngReg)

/-- The head's array after the run. -/
theorem head_array (c : Dev nD) :
    (dat0 (V1 m ρ) c).arrAt 6 cfg0.N
      = headLogits (m ((c : Thread nD τ).loc main_arg0)) (m ((c : Thread nD τ).loc main_arg2))
          (fun y => m ((c : Thread nD τ).loc main_arg3) (ix1 (y 1 : Fin 2002))) := by
  rw [Region0.final_head (V1 m ρ) c, V1_x, V1_head_w, V1_head_b]
  rfl

/-- The first tail cluster's array after the run. -/
theorem tail0_array (c : Dev nD) :
    (dat0 (V1 m ρ) c).arrAt 7 cfg0.N
      = tailMaskedFirst (m ((c : Thread nD τ).loc main_arg0)) (m ((c : Thread nD τ).loc main_arg4))
          (m ((c : Thread nD τ).loc main_arg5)) (inRange 2000#32 10000#32 (m ((c : Thread nD τ).loc main_arg1))) := by
  rw [Region0.final_tail (V1 m ρ) c, V1_x, V1_tail0_w1, V1_tail0_w2, V1_mask0]

/-- The second tail cluster's array after the run. -/
theorem tail1_array (c : Dev nD) :
    (dat1 (V2 m ρ) c).arrAt 4 cfg1.N
      = tailMaskedFirst (m ((c : Thread nD τ).loc main_arg0)) (m ((c : Thread nD τ).loc main_arg6))
          (m ((c : Thread nD τ).loc main_arg7)) (inRange 10000#32 30000#32 (m ((c : Thread nD τ).loc main_arg1))) := by
  rw [Region1.final_tail (V2 m ρ) c, V2_x, V2_tail1_w1, V2_tail1_w2, V2_mask1, V1_x, V1_tail1_w1, V1_tail1_w2, V1_mask1]

/-- Every weakly fair execution of the idealized kernel's @main terminates with the three results at those
    functions of the arguments, the arguments unchanged. -/
theorem run : θ_run defs (onTc (τ := τ) (main (F := Ideal))) ⟨m, fun _ => 0, ρ⟩ (fun r => ∀ c : Dev nD,
      r.2.mem ((c.tc : Thread nD τ).loc main_v20_0)
        = headLogits (m ((c : Thread nD τ).loc main_arg0)) (m ((c : Thread nD τ).loc main_arg2))
            (fun y => m ((c : Thread nD τ).loc main_arg3) (ix1 (y 1 : Fin 2002)))
      ∧ r.2.mem ((c.tc : Thread nD τ).loc main_v20_1)
        = tailMaskedFirst (m ((c : Thread nD τ).loc main_arg0)) (m ((c : Thread nD τ).loc main_arg4))
            (m ((c : Thread nD τ).loc main_arg5)) (inRange 2000#32 10000#32 (m ((c : Thread nD τ).loc main_arg1)))
      ∧ r.2.mem ((c.tc : Thread nD τ).loc main_v21)
        = tailMaskedFirst (m ((c : Thread nD τ).loc main_arg0)) (m ((c : Thread nD τ).loc main_arg6))
            (m ((c : Thread nD τ).loc main_arg7)) (inRange 10000#32 30000#32 (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c).1.trans (head_array m ρ c), (h c).2.1.trans (tail0_array m ρ c), (h c).2.2.1.trans (tail1_array m ρ c), (h c).2.2.2⟩)
    (Outputs.run_folds m ρ)

end Cert.KernelIdeal.Results

end
-- ==== Proof.ReferenceValue.lean ====
/-
  The reference's three results, as the same whole-array functions.

  The reference transposes each weight array and takes a general dot product of the inputs with it, contracting
  the inputs' last axis with the transposed array's first: entry (r, j) is the sum over k of
  `x (r, k) · w (j, k)`, the product `x · wᵀ`.  The head adds the bias repeated down the rows.  Each tail cluster
  applies its two layers and then multiplies every output row by that example's membership factor (the range test
  of the target, repeated along the row).  So the head is `headLogits` and each tail cluster is
  `tailMaskedLast`.
-/
import proofs.«157948_j25168508355076_2_alg».proof.Proof.Gen.ReferenceIdeal.Read
import proofs.«157948_j25168508355076_2_alg».proof.Proof.Clusters

noncomputable section

namespace Cert.ReferenceIdeal.RefValue

open Cert.ReferenceIdeal Cert.ReferenceIdeal.Gen Cert.ReferenceIdeal.Read
open Idealize.ShloMosaic Idealize.ShloMosaic.ValueIdx
open Cert.Dense Cert.RowWeights Cert.Clusters

/-- A sum over k of left-operand entries at (row of i, k) times transposed-weight entries that are `w (column of i, k)`
    is the (i) entry of `a · wᵀ`. -/
theorem dot_eq_rowsTimes {M K N : Nat} (a : (⟨2, ![M, K]⟩ : Shape).Idx → EReal) (wT : (⟨2, ![K, N]⟩ : Shape).Idx → EReal)
    (w : (⟨2, ![N, K]⟩ : Shape).Idx → EReal) (li : Fin K → (⟨2, ![M, K]⟩ : Shape).Idx) (ri : Fin K → (⟨2, ![K, N]⟩ : Shape).Idx)
    (i : (⟨2, ![M, N]⟩ : Shape).Idx) (hl : ∀ k, li k = ix2 (i 0 : Fin M) k) (hr : ∀ k, wT (ri k) = w (ix2 (i 1 : Fin N) k)) :
    ∑ k, a (li k) * wT (ri k) = rowsTimes a (tr w) i :=
  Finset.sum_congr rfl fun k _ => by rw [hl k, hr k]; rfl

/-! ## The head -/

theorem head_product (x0 : S8192x1024.Idx → EReal) (x2 : S2002x1024.Idx → EReal) :
    val_main_v1 (F := Ideal) x0 x2 = rowsTimes x0 (tr x2) := by
  funext i
  rw [val_main_v1_apply]
  refine dot_eq_rowsTimes x0 (val_main_v0 (F := Ideal) x2) x2 (lidx_main_v1 i) (ridx_main_v1 i) i (fun k => ?_) (fun k => ?_)
  · exact funext fun a => Fin.ext (by match a with | ⟨0, _⟩ => rfl | ⟨1, _⟩ => rfl)
  · rw [val_main_v0_apply]
    exact congrArg x2 (funext fun a => Fin.ext (by match a with | ⟨0, _⟩ => rfl | ⟨1, _⟩ => rfl))

theorem head_eq (x0 : S8192x1024.Idx → EReal) (x2 : S2002x1024.Idx → EReal) (x3 : S2002.Idx → EReal) :
    val_main_v4 (F := Ideal) x0 x2 x3 = headLogits x0 x2 (fun y => x3 (ix1 (y 1 : Fin 2002))) := by
  funext i
  rw [val_main_v4_apply, head_product, val_main_v3_apply, val_main_v2_apply]
  exact congrArg (rowsTimes x0 (tr x2) i + ·)
    (congrArg x3 (funext fun a => Fin.ext (by match a with | ⟨0, _⟩ => rfl)))

/-! ## The first tail cluster -/

theorem tail0_hidden (x0 : S8192x1024.Idx → EReal) (x4 : S1024x1024.Idx → EReal) :
    val_main_v18 (F := Ideal) x0 x4 = rowsTimes x0 (tr x4) := by
  funext i
  rw [val_main_v18_apply]
  refine dot_eq_rowsTimes x0 (val_main_v17 (F := Ideal) x4) x4 (lidx_main_v18 i) (ridx_main_v18 i) i (fun k => ?_) (fun k => ?_)
  · exact funext fun a => Fin.ext (by match a with | ⟨0, _⟩ => rfl | ⟨1, _⟩ => rfl)
  · rw [val_main_v17_apply]
    exact congrArg x4 (funext fun a => Fin.ext (by match a with | ⟨0, _⟩ => rfl | ⟨1, _⟩ => rfl))

theorem tail0_product (x0 : S8192x1024.Idx → EReal) (x4 : S1024x1024.Idx → EReal) (x5 : S8000x1024.Idx → EReal) :
    val_main_v20 (F := Ideal) x0 x4 x5 = rowsTimes (rowsTimes x0 (tr x4)) (tr x5) := by
  funext i
  rw [val_main_v20_apply, tail0_hidden]
  refine dot_eq_rowsTimes (rowsTimes x0 (tr x4)) (val_main_v19 (F := Ideal) x5) x5 (lidx_main_v20 i) (ridx_main_v20 i) i (fun k => ?_) (fun k => ?_)
  · exact funext fun a => Fin.ext (by match a with | ⟨0, _⟩ => rfl | ⟨1, _⟩ => rfl)
  · rw [val_main_v19_apply]
    exact congrArg x5 (funext fun a => Fin.ext (by match a with | ⟨0, _⟩ => rfl | ⟨1, _⟩ => rfl))

/-- The first cluster's factors are the range test of the targets. -/
theorem mask0_eq (x1 : S8192.Idx → BitVec 32) : val_main_v10 (F := Ideal) x1 = inRange 2000#32 10000#32 x1 := by
  funext r
  rw [val_main_v10_apply, val_main_v9_apply, val_main_v6_apply, val_main_v8_apply, val_main_v5_apply, val_main_c_apply,
    val_main_v7_apply, val_main_c_0_apply]
  rfl

theorem tail0_eq (x0 : S8192x1024.Idx → EReal) (x1 : S8192.Idx → BitVec 32) (x4 : S1024x1024.Idx → EReal) (x5 : S8000x1024.Idx → EReal) :
    val_main_v23 (F := Ideal) x0 x1 x4 x5 = tailMaskedLast x0 x4 x5 (inRange 2000#32 10000#32 x1) := by
  funext i
  rw [val_main_v23_apply, tail0_product, val_main_v22_apply, val_main_v21_apply, mask0_eq]
  exact congrArg (rowsTimes (rowsTimes x0 (tr x4)) (tr x5) i * ·)
    (congrArg (inRange 2000#32 10000#32 x1) (funext fun a => Fin.ext (by match a with | ⟨0, _⟩ => rfl)))

/-! ## The second tail cluster -/

theorem tail1_hidden (x0 : S8192x1024.Idx → EReal) (x6 : S256x1024.Idx → EReal) :
    val_main_v25 (F := Ideal) x0 x6 = rowsTimes x0 (tr x6) := by
  funext i
  rw [val_main_v25_apply]
  refine dot_eq_rowsTimes x0 (val_main_v24 (F := Ideal) x6) x6 (lidx_main_v25 i) (ridx_main_v25 i) i (fun k => ?_) (fun k => ?_)
  · exact funext fun a => Fin.ext (by match a with | ⟨0, _⟩ => rfl | ⟨1, _⟩ => rfl)
  · rw [val_main_v24_apply]
    exact congrArg x6 (funext fun a => Fin.ext (by match a with | ⟨0, _⟩ => rfl | ⟨1, _⟩ => rfl))

theorem tail1_product (x0 : S8192x1024.Idx → EReal) (x6 : S256x1024.Idx → EReal) (x7 : S20000x256.Idx → EReal) :
    val_main_v27 (F := Ideal) x0 x6 x7 = rowsTimes (rowsTimes x0 (tr x6)) (tr x7) := by
  funext i
  rw [val_main_v27_apply, tail1_hidden]
  refine dot_eq_rowsTimes (rowsTimes x0 (tr x6)) (val_main_v26 (F := Ideal) x7) x7 (lidx_main_v27 i) (ridx_main_v27 i) i (fun k => ?_) (fun k => ?_)
  · exact funext fun a => Fin.ext (by match a with | ⟨0, _⟩ => rfl | ⟨1, _⟩ => rfl)
  · rw [val_main_v26_apply]
    exact congrArg x7 (funext fun a => Fin.ext (by match a with | ⟨0, _⟩ => rfl | ⟨1, _⟩ => rfl))

/-- The second cluster's factors. -/
theorem mask1_eq (x1 : S8192.Idx → BitVec 32) : val_main_v16 (F := Ideal) x1 = inRange 10000#32 30000#32 x1 := by
  funext r
  rw [val_main_v16_apply, val_main_v15_apply, val_main_v12_apply, val_main_v14_apply, val_main_v11_apply, val_main_c_1_apply,
    val_main_v13_apply, val_main_c_2_apply]
  rfl

theorem tail1_eq (x0 : S8192x1024.Idx → EReal) (x1 : S8192.Idx → BitVec 32) (x6 : S256x1024.Idx → EReal) (x7 : S20000x256.Idx → EReal) :
    val_main_v30 (F := Ideal) x0 x1 x6 x7 = tailMaskedLast x0 x6 x7 (inRange 10000#32 30000#32 x1) := by
  funext i
  rw [val_main_v30_apply, tail1_product, val_main_v29_apply, val_main_v28_apply, mask1_eq]
  exact congrArg (rowsTimes (rowsTimes x0 (tr x6)) (tr x7) i * ·)
    (congrArg (inRange 10000#32 30000#32 x1) (funext fun a => Fin.ext (by match a with | ⟨0, _⟩ => rfl)))

end Cert.ReferenceIdeal.RefValue

end
-- ==== Proof.lean ====
/-
  The certificate of an adaptive-softmax forward pass: a head of 2002 logits and two tail clusters of 8000 and
  20000 logits over 8192 examples of width 1024.

  The kernel runs as two pipelined regions over row blocks.  The first computes the head, `x · head_wᵀ + head_b`,
  and the first tail cluster; the second computes the second tail cluster.  A tail cluster is two linear layers
  with no bias and nothing between them, and each example carries a membership factor that is 1 when its target
  lies in the cluster's range and 0 otherwise.  The kernel multiplies the HIDDEN row `(x · w1ᵀ) (r, ·)` by example
  r's factor before the second layer; the reference applies both layers and multiplies the OUTPUT row by it.
  On the extended reals — every change of float format the identity, every matrix product the plain sum of
  products — the head is the same sum on both sides, and a tail cluster's two orders agree because the factor is 0
  or 1: with 1 nothing changes, with 0 every product on one side and the whole sum on the other is 0, an
  infinite entry included.  No entry needs to be finite, so the precondition is never opened.

  The three frames are the generated ones (the reference's is its generated run with the results dropped); the
  idealization rewrote nothing, so `preserves` is trivial.
-/
import proofs.«157948_j25168508355076_2_alg».proof.Defs
import proofs.«157948_j25168508355076_2_alg».proof.Proof.Gen.Kernel
import proofs.«157948_j25168508355076_2_alg».proof.Proof.Gen.Kernel.Frame
import proofs.«157948_j25168508355076_2_alg».proof.Proof.Gen.KernelIdeal
import proofs.«157948_j25168508355076_2_alg».proof.Proof.Gen.KernelIdeal.Frame
import proofs.«157948_j25168508355076_2_alg».proof.Proof.Gen.ReferenceIdeal
import proofs.«157948_j25168508355076_2_alg».proof.Proof.Gen.Pre_finite_inputs
import proofs.«157948_j25168508355076_2_alg».proof.Proof.Gen.ReferenceIdeal.Run
import proofs.«157948_j25168508355076_2_alg».proof.Proof.Gen.ReferenceIdeal.Read
import proofs.«157948_j25168508355076_2_alg».proof.Proof.KernelValue
import proofs.«157948_j25168508355076_2_alg».proof.Proof.ReferenceValue
import Idealize.ShloMosaic.Adequacy
import Idealize.ShloMosaic.Init

noncomputable section

namespace Cert.Proof

open Idealize.ShloMosaic Idealize.SL.Sem Cert.Clusters

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories that agree on the arguments both programs end with the head at `headLogits` and each tail
    cluster at `tailMaskedFirst` of the arguments: the kernel by its run read back, the reference because its
    `tailMaskedLast` is the same array for 0/1 factors. -/
theorem algebraic : Cert.algebraic_KernelIdeal_ReferenceIdeal := by
  intro m ρ m' ρ' _ hagree
  refine ⟨_, _, _, Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  obtain ⟨h0, h1, h2, hargs⟩ := h c
  refine ⟨?_, ?_, ?_, hargs⟩
  · rw [h0, Cert.ReferenceIdeal.Read.val_main_v4_eq, Cert.ReferenceIdeal.RefValue.head_eq, a0, a2, a3]
  · rw [h1, Cert.ReferenceIdeal.Read.val_main_v23_eq, Cert.ReferenceIdeal.RefValue.tail0_eq, a0, a1, a4, a5]
    exact (tailMaskedFirst_eq_last _ _ _ _ (inRange_bit _ _ _)).symm
  · rw [h2, Cert.ReferenceIdeal.Read.val_main_v30_eq, Cert.ReferenceIdeal.RefValue.tail1_eq, a0, a1, a6, a7]
    exact (tailMaskedFirst_eq_last _ _ _ _ (inRange_bit _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
